-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x512 : Shape := ⟨2, ![32768, 512]⟩
abbrev S32768x2 : Shape := ⟨2, ![32768, 2]⟩
abbrev S2048x256 : Shape := ⟨2, ![2048, 256]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S32768x2 : S_.BroadcastsInDim S32768x2 (![] : Fin 0 → Fin S32768x2.rank)
  reducesTo_S32768x2_S_d0_1 : S32768x2.ReducesTo [0, 1] S_
  bcast_S_S2048x256 : S_.BroadcastsInDim S2048x256 (![] : Fin 0 → Fin S2048x256.rank)
  reducesTo_S2048x256_S_d0_1 : S2048x256.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S2048 .f32) (main_arg8 : FVec F S512x512 .f32) (main_arg9 : FVec F S512 .f32) (main_arg10 : FVec F S512x512 .f32) (main_arg11 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S2048x256 .f32) (main_arg5 : FVec F S2048x512 .f32) (main_arg6 : FVec F S2048 .f32) (main_arg7 : FVec F S2048 .f32) (main_arg8 : FVec F S512x512 .f32) (main_arg9 : FVec F S512 .f32) (main_arg10 : FVec F S512x512 .f32) (main_arg11 : FVec F S512 .f32) (main_v13 : IVec S_ 1) (main_v16 : IVec S32768x2 1) : IVec S_ 1 :=
  let main_c_5 : IVec S_ 1 := constantI S_ 1 1#1
  let main_v17 : IVec S_ 1 := (fun x v => Host.reduce IntOp.andi x v reducesTo_S32768x2_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x256 .f32) (main_arg1 : FVec F S32768x512 .f32) (main_arg2 : FVec F S32768x512 .f32) (main_arg3 : FVec F S32768x2 .f32) (main_arg4 : FVec F S2048x256 .f32) (main_arg5 : FVec F S2048x512 .f32) (main_arg6 : FVec F S2048 .f32) (main_arg7 : FVec F S2048 .f32) (main_arg8 : FVec F S512x512 .f32) (main_arg9 : FVec F S512 .f32) (main_arg10 : FVec F S512x512 .f32) (main_arg11 : FVec F S512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x2 .f32 := Host.absf main_arg3
  let main_cst_4 : FVec F S_ .f32 := constant S_ .f32 0x7F800000#32
  let main_v15 : FVec F S32768x2 .f32 := broadcastInDim S32768x2 ![] bcast_S_S32768x2 main_cst_4
  let main_v16 : IVec S32768x2 1 := cmpf .olt main_v14 main_v15
  fn_part1 (F := F) main_arg4 main_arg5 main_arg6 main_arg7 main_arg8 main_arg9 main_arg10 main_arg11 main_v13 main_v16
-- ==== Kernel.lean ====
abbrev S32768x256 : Shape := ⟨2, ![32768, 256]⟩
abbrev S32768x512 : Shape := ⟨2, ![32768, 512]⟩
abbrev S32768x2 : Shape := ⟨2, ![32768, 2]⟩
abbrev S2048x256 : Shape := ⟨2, ![2048, 256]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S256x2048 : Shape := ⟨2, ![256, 2048]⟩
abbrev S512x2048 : Shape := ⟨2, ![512, 2048]⟩
abbrev S1x2048 : Shape := ⟨2, ![1, 2048]⟩
abbrev S1x512 : Shape := ⟨2, ![1, 512]⟩
abbrev S512x256 : Shape := ⟨2, ![512, 256]⟩
abbrev S512x2 : Shape := ⟨2, ![512, 2]⟩
abbrev S512x1 : Shape := ⟨2, ![512, 1]⟩

abbrev nBuf : Space → Nat
  | .hbm => 26
  | .vmem => 19
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S32768x2, .f32⟩
  | .hbm, ⟨4, _⟩ => ⟨S2048x256, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S256x2048, .f32⟩
  | .hbm, ⟨13, _⟩ => ⟨S256x2048, .bf16⟩
  | .hbm, ⟨14, _⟩ => ⟨S512x2048, .f32⟩
  | .hbm, ⟨15, _⟩ => ⟨S512x2048, .bf16⟩
  | .hbm, ⟨16, _⟩ => ⟨S2048, .f32⟩
  | .hbm, ⟨17, _⟩ => ⟨S1x2048, .f32⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S1x512, .f32⟩
  | .hbm, ⟨23, _⟩ => ⟨S1x512, .f32⟩
  | .hbm, ⟨24, _⟩ => ⟨S32768x512, .f32⟩
  | .hbm, ⟨25, _⟩ => ⟨S32768x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2, .f32⟩
  | .local _ .vmem, ⟨7, _⟩ => ⟨S512x2, .f32⟩
  | .local _ .vmem, ⟨8, _⟩ => ⟨S256x2048, .bf16⟩
  | .local _ .vmem, ⟨9, _⟩ => ⟨S512x2048, .bf16⟩
  | .local _ .vmem, ⟨10, _⟩ => ⟨S1x2048, .f32⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S2048x256_S256x2048_1_0 : S2048x256.Transposes [1, 0] S256x2048
  bitsLt_bf16_f32 : FTy.bits .bf16 < FTy.bits .f32
  transposes_S2048x512_S512x2048_1_0 : S2048x512.Transposes [1, 0] S512x2048
  shapeCasts_S2048_S1x2048 : S2048.ShapeCasts S1x2048
  transposes_S512x512_S512x512_1_0 : S512x512.Transposes [1, 0] S512x512
  shapeCasts_S512_S1x512 : S512.ShapeCasts S1x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x2_S512x1_0_1 : ∀ a, (![0, 1] : Fin 2 → Nat) a + S512x1.size a ≤ S512x2.size a
  h_S512x1 : 0 < S512x1.numel
  inb_S512x2_S512x1_0_0 : ∀ a, (![0, 0] : Fin 2 → Nat) a + S512x1.size a ≤ S512x2.size a
  broadcasts_S1x512_S512x512 : S1x512.Broadcasts S512x512
  broadcasts_S512x1_S512x512 : S512x1.Broadcasts S512x512
  dot_S512x256_S256x2048_S512x2048_1_0_0_1_n_n_wf : DotDims.WF S512x256 S256x2048 S512x2048 [1] [0] [0] [1] [] []
  dot_S512x512_S512x2048_S512x2048_1_0_0_1_n_n_wf : DotDims.WF S512x512 S512x2048 S512x2048 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S32768x2.size a
  hwx0_3 : ∀ i : grid0.Coords, EltTy.bits .f32 = 32 ∨ (Rect.block (s := S32768x2) S512x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x2048.size a
  hwx0_4 : ∀ i : grid0.Coords, EltTy.bits .bf16 = 32 ∨ (Rect.block (s := S256x2048) S256x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S32768x512.size a
  hwx0_11 : ∀ i : grid0.Coords, EltTy.bits .f32 = 32 ∨ (Rect.block (s := S32768x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S32768x512.size a
  hwx0_12 : ∀ i : grid0.Coords, EltTy.bits .f32 = 32 ∨ (Rect.block (s := S32768x512) S512x512.size (cc0_transform_12 i) (hinb0_12 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x512 : Shape := ⟨2, ![32768, 512]⟩
abbrev S32768x2 : Shape := ⟨2, ![32768, 2]⟩
abbrev S2048x256 : Shape := ⟨2, ![2048, 256]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S256x2048 : Shape := ⟨2, ![256, 2048]⟩
abbrev S32768x2048 : Shape := ⟨2, ![32768, 2048]⟩
abbrev S1x2048 : Shape := ⟨2, ![1, 2048]⟩
abbrev S512x2048 : Shape := ⟨2, ![512, 2048]⟩
abbrev S_ : Shape := ⟨0, ![]⟩
abbrev S32768x1 : Shape := ⟨2, ![32768, 1]⟩
abbrev S32768 : Shape := ⟨1, ![32768]⟩
abbrev S1x512 : Shape := ⟨2, ![1, 512]⟩

abbrev nBuf : Space → Nat
  | .hbm => 182
  | .vmem => 0
  | .smem => 0
  | _ => 0

abbrev hbmTy0_0 (i : Nat) : BufTy := match i % 128 with
  | 0 => ⟨S32768x256, .f32⟩
  | 1 => ⟨S32768x512, .f32⟩
  | 2 => ⟨S32768x512, .f32⟩
  | 3 => ⟨S32768x2, .f32⟩
  | 4 => ⟨S2048x256, .f32⟩
  | 5 => ⟨S2048x512, .f32⟩
  | 6 => ⟨S2048, .f32⟩
  | 7 => ⟨S2048, .f32⟩
  | 8 => ⟨S512x512, .f32⟩
  | 9 => ⟨S512, .f32⟩
  | 10 => ⟨S512x512, .f32⟩
  | 11 => ⟨S512, .f32⟩
  | 12 => ⟨S256x2048, .f32⟩
  | 13 => ⟨S32768x2048, .f32⟩
  | 14 => ⟨S1x2048, .f32⟩
  | 15 => ⟨S32768x2048, .f32⟩
  | 16 => ⟨S32768x2048, .f32⟩
  | 17 => ⟨S512x2048, .f32⟩
  | 18 => ⟨S32768x2048, .f32⟩
  | 19 => ⟨S32768x2048, .f32⟩
  | 20 => ⟨S1x2048, .f32⟩
  | 21 => ⟨S32768x2048, .f32⟩
  | 22 => ⟨S32768x2048, .f32⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S_, .f32⟩
  | 30 => ⟨S32768x512, .f32⟩
  | 31 => ⟨S32768x512, .f32⟩
  | 32 => ⟨S_, .f32⟩
  | 33 => ⟨S32768x512, .f32⟩
  | 34 => ⟨S32768x512, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S32768x512, .f32⟩
  | 44 => ⟨S32768x512, .f32⟩
  | 45 => ⟨S32768x512, .f32⟩
  | 46 => ⟨S_, .f32⟩
  | 47 => ⟨S32768x512, .f32⟩
  | 48 => ⟨S32768x512, .f32⟩
  | 49 => ⟨S_, .f32⟩
  | 50 => ⟨S32768x512, .f32⟩
  | 51 => ⟨S32768x512, .f32⟩
  | 52 => ⟨S32768x512, .f32⟩
  | 53 => ⟨S32768x512, .f32⟩
  | 54 => ⟨S32768x512, .f32⟩
  | 55 => ⟨S32768x512, .f32⟩
  | 56 => ⟨S32768x512, .f32⟩
  | 57 => ⟨S256x2048, .f32⟩
  | 58 => ⟨S32768x2048, .f32⟩
  | 59 => ⟨S1x2048, .f32⟩
  | 60 => ⟨S32768x2048, .f32⟩
  | 61 => ⟨S32768x2048, .f32⟩
  | 62 => ⟨S512x2048, .f32⟩
  | 63 => ⟨S32768x2048, .f32⟩
  | 64 => ⟨S32768x2048, .f32⟩
  | 65 => ⟨S1x2048, .f32⟩
  | 66 => ⟨S32768x2048, .f32⟩
  | 67 => ⟨S32768x2048, .f32⟩
  | 68 => ⟨S32768x512, .f32⟩
  | 69 => ⟨S32768x512, .f32⟩
  | 70 => ⟨S32768x512, .f32⟩
  | 71 => ⟨S32768x512, .f32⟩
  | 72 => ⟨S32768x512, .f32⟩
  | 73 => ⟨S32768x512, .f32⟩
  | 74 => ⟨S_, .f32⟩
  | 75 => ⟨S32768x512, .f32⟩
  | 76 => ⟨S32768x512, .f32⟩
  | 77 => ⟨S_, .f32⟩
  | 78 => ⟨S32768x512, .f32⟩
  | 79 => ⟨S32768x512, .f32⟩
  | 80 => ⟨S32768x512, .f32⟩
  | 81 => ⟨S32768x512, .f32⟩
  | 82 => ⟨S_, .f32⟩
  | 83 => ⟨S32768x512, .f32⟩
  | 84 => ⟨S32768x512, .f32⟩
  | 85 => ⟨S_, .f32⟩
  | 86 => ⟨S32768x512, .f32⟩
  | 87 => ⟨S32768x512, .f32⟩
  | 88 => ⟨S32768x512, .f32⟩
  | 89 => ⟨S32768x512, .f32⟩
  | 90 => ⟨S32768x512, .f32⟩
  | 91 => ⟨S_, .f32⟩
  | 92 => ⟨S32768x512, .f32⟩
  | 93 => ⟨S32768x512, .f32⟩
  | 94 => ⟨S_, .f32⟩
  | 95 => ⟨S32768x512, .f32⟩
  | 96 => ⟨S32768x512, .f32⟩
  | 97 => ⟨S32768x512, .f32⟩
  | 98 => ⟨S32768x512, .f32⟩
  | 99 => ⟨S32768x512, .f32⟩
  | 100 => ⟨S32768x512, .f32⟩
  | 101 => ⟨S32768x512, .f32⟩
  | 102 => ⟨S32768x1, .f32⟩
  | 103 => ⟨S32768, .f32⟩
  | 104 => ⟨S32768x1, .f32⟩
  | 105 => ⟨S32768, .f32⟩
  | 106 => ⟨S32768, .f32⟩
  | 107 => ⟨S32768x1, .f32⟩
  | 108 => ⟨S512x512, .f32⟩
  | 109 => ⟨S32768x512, .f32⟩
  | 110 => ⟨S1x512, .f32⟩
  | 111 => ⟨S32768x512, .f32⟩
  | 112 => ⟨S32768x512, .f32⟩
  | 113 => ⟨S32768x512, .f32⟩
  | 114 => ⟨S512x512, .f32⟩
  | 115 => ⟨S32768x512, .f32⟩
  | 116 => ⟨S1x512, .f32⟩
  | 117 => ⟨S32768x512, .f32⟩
  | 118 => ⟨S32768x512, .f32⟩
  | 119 => ⟨S_, .f32⟩
  | 120 => ⟨S32768x1, .f32⟩
  | 121 => ⟨S32768x1, .f32⟩
  | 122 => ⟨S32768x512, .f32⟩
  | 123 => ⟨S32768x512, .f32⟩
  | 124 => ⟨S32768x512, .f32⟩
  | 125 => ⟨S512x512, .f32⟩
  | 126 => ⟨S32768x512, .f32⟩
  | 127 => ⟨S1x512, .f32⟩
  | _ => ⟨S32768x256, .f32⟩

abbrev hbmTy0_1 (i : Nat) : BufTy := match i % 128 with
  | 0 => ⟨S32768x512, .f32⟩
  | 1 => ⟨S32768x512, .f32⟩
  | 2 => ⟨S32768x512, .f32⟩
  | 3 => ⟨S512x512, .f32⟩
  | 4 => ⟨S32768x512, .f32⟩
  | 5 => ⟨S1x512, .f32⟩
  | 6 => ⟨S32768x512, .f32⟩
  | 7 => ⟨S32768x512, .f32⟩
  | 8 => ⟨S_, .f32⟩
  | 9 => ⟨S32768x1, .f32⟩
  | 10 => ⟨S32768x1, .f32⟩
  | 11 => ⟨S32768x512, .f32⟩
  | 12 => ⟨S32768x512, .f32⟩
  | 13 => ⟨S32768x512, .f32⟩
  | 14 => ⟨S512x512, .f32⟩
  | 15 => ⟨S32768x512, .f32⟩
  | 16 => ⟨S1x512, .f32⟩
  | 17 => ⟨S32768x512, .f32⟩
  | 18 => ⟨S32768x512, .f32⟩
  | 19 => ⟨S32768x512, .f32⟩
  | 20 => ⟨S512x512, .f32⟩
  | 21 => ⟨S32768x512, .f32⟩
  | 22 => ⟨S1x512, .f32⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S512x512, .f32⟩
  | 29 => ⟨S32768x512, .f32⟩
  | 30 => ⟨S1x512, .f32⟩
  | 31 => ⟨S32768x512, .f32⟩
  | 32 => ⟨S32768x512, .f32⟩
  | 33 => ⟨S32768x512, .f32⟩
  | 34 => ⟨S512x512, .f32⟩
  | 35 => ⟨S32768x512, .f32⟩
  | 36 => ⟨S1x512, .f32⟩
  | 37 => ⟨S32768x512, .f32⟩
  | 38 => ⟨S32768x512, .f32⟩
  | 39 => ⟨S_, .f32⟩
  | 40 => ⟨S32768x1, .f32⟩
  | 41 => ⟨S32768x1, .f32⟩
  | 42 => ⟨S_, .f32⟩
  | 43 => ⟨S32768x512, .f32⟩
  | 44 => ⟨S32768x512, .f32⟩
  | 45 => ⟨S32768x512, .f32⟩
  | 46 => ⟨S_, .f32⟩
  | 47 => ⟨S32768x512, .f32⟩
  | 48 => ⟨S32768x512, .f32⟩
  | 49 => ⟨S32768x512, .f32⟩
  | 50 => ⟨S32768x512, .f32⟩
  | 51 => ⟨S32768x512, .f32⟩
  | 52 => ⟨S32768x512, .f32⟩
  | 53 => ⟨S32768x512, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_12 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_13 : Ref sig .tc := ⟨.hbm, 167, rfl⟩
abbrev main_v141 : Ref sig .tc := ⟨.hbm, 168, rfl⟩
abbrev main_v142 : Ref sig .tc := ⟨.hbm, 169, rfl⟩
abbrev main_cst_14 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_15 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩

abbrev nD : Nat := 1
abbrev τ : Topo := Topo.v7x

variable {F : FTy → Type} [FloatOps F]

class Facts₀ : Prop where
  transposes_S2048x256_S256x2048_1_0 : S2048x256.Transposes [1, 0] S256x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  transposes_S2048x512_S512x2048_1_0 : S2048x512.Transposes [1, 0] S512x2048
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  slices_S32768x2_S32768x1_0_1 : S32768x2.Slices ![0, 1] S32768x1
  shapeCasts_S32768x1_S32768 : S32768x1.ShapeCasts S32768
  slices_S32768x2_S32768x1_0_0 : S32768x2.Slices ![0, 0] S32768x1
  bcast_S32768_S32768x1_0 : S32768.BroadcastsInDim S32768x1 (![0] : Fin 1 → Fin S32768x1.rank)
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  dot_S32768x256_S256x2048_S32768x2048_1_0_0_1_n_n_wf : DotDims.WF S32768x256 S256x2048 S32768x2048 [1] [0] [0] [1] [] []
  dot_S32768x512_S512x2048_S32768x2048_1_0_0_1_n_n_wf : DotDims.WF S32768x512 S512x2048 S32768x2048 [1] [0] [0] [1] [] []
  dot_S32768x512_S512x512_S32768x512_1_0_0_1_n_n_wf : DotDims.WF S32768x512 S512x512 S32768x512 [1] [0] [0] [1] [] []

variable [Facts₀]

def dot_S32768x256_S256x2048_S32768x2048_1_0_0_1_n_n : DotDims S32768x256 S256x2048 S32768x2048 where
  lhsContracting := [1]
  rhsContracting := [0]
  lhsNonContracting := [0]
  rhsNonContracting := [1]
  lhsBatch := []
  rhsBatch := []
  wf := dot_S32768x256_S256x2048_S32768x2048_1_0_0_1_n_n_wf
def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.CellSpec.lean ====
/-
  One batch row of the cell, as real-analytic formulas on the extended reals.

  A row carries an input x (256 entries), a hidden state h and a cell state c (512 entries each) and two times t0, t1.
  With the weights W_ih [2048, 256], W_hh [2048, 512] and the biases b_ih, b_hh, the 2048 pre-activations of one LSTM
  update are  z_j = ((Σ_k x_k · W_ih[j, k] + b_ih[j]) + Σ_k h_k · W_hh[j, k]) + b_hh[j];  the four gates read the four
  quarters of z: input i = σ(z[0:512]), forget f = σ(z[512:1024]), candidate g = tanh(z[1024:1536]), output
  o = σ(z[1536:2048]), with σ the logistic function 1 / (1 + e^(-x)); the new cell state is f · c + i · g and the new
  hidden state o · tanh(f · c + i · g). The update is applied twice with the same input. The vector field of the
  differential equation is F(h)_q = Σ_k tanh(Σ_k' h_k' · W1[k, k'] + b1[k]) · W2[q, k] + b2[q], and one classical
  Runge-Kutta step of length dt = t1 - t0 from the twice-updated hidden state h gives
  h + (dt / 6) · (((k1 + 2 · k2) + 2 · k3) + k4),  k1 = F(h), k2 = F(h + (dt / 2) · k1), k3 = F(h + (dt / 2) · k2),
  k4 = F(h + dt · k3).

  The one law of this file: the logistic function is also 1/2 · (tanh(x / 2) + 1), at every extended real (at the
  infinities both sides are 0 and 1).
-/
import Idealize.ShloMosaic.PureOps.Ideal
import Mathlib.Analysis.SpecialFunctions.Trigonometric.DerivHyp

noncomputable section

open scoped BigOperators

namespace OdeLstm

open Idealize.ShloMosaic

/-! ## The four float words the formulas spell -/

/-- The word of 0.5 denotes the real 1/2. -/
theorem ofBits_half : Ideal.ofBits .f32 0x3F000000#32 = (((1 : ℝ) / 2 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-! ## The logistic function, and its hyperbolic-tangent form -/

/-- The logistic function 1 / (1 + e^(-x)), the constant 1 spelt by its float word. -/
def lgst (x : EReal) : EReal :=
  Ideal.div (Ideal.ofBits .f32 0x3F800000#32) (Ideal.ofBits .f32 0x3F800000#32 + Ideal.exp (-x))

theorem lgst_eq_logistic (x : EReal) : lgst x = Ideal.logistic x := by
  unfold lgst Ideal.logistic
  rw [ofBits_one]

/-- On the reals, 1/2 · (tanh(r / 2) + 1) = 1 / (1 + e^(-r)). -/
theorem real_half_tanh (r : ℝ) : (1 : ℝ) / 2 * (Real.tanh ((1 : ℝ) / 2 * r) + 1) = (1 + Real.exp (-r))⁻¹ := by
  have hpos : 0 < Real.exp ((1 : ℝ) / 2 * r) := Real.exp_pos _
  have hneg : Real.exp (-((1 : ℝ) / 2 * r)) = (Real.exp ((1 : ℝ) / 2 * r))⁻¹ := Real.exp_neg _
  have hr : Real.exp (-r) = (Real.exp ((1 : ℝ) / 2 * r))⁻¹ * (Real.exp ((1 : ℝ) / 2 * r))⁻¹ := by
    rw [← hneg, ← Real.exp_add]; congr 1; ring
  rw [Real.tanh_eq_sinh_div_cosh, Real.sinh_eq, Real.cosh_eq, hneg, hr]
  have h1 : Real.exp ((1 : ℝ) / 2 * r) ≠ 0 := ne_of_gt hpos
  field_simp
  ring

/-- THE LAW: 1/2 · (tanh(1/2 · x) + 1) is the logistic function of x, on every extended real. -/
theorem half_tanh_eq_lgst (x : EReal) :
    Ideal.ofBits .f32 0x3F000000#32 * (Ideal.tanh (Ideal.ofBits .f32 0x3F000000#32 * x) + Ideal.ofBits .f32 0x3F800000#32)
      = lgst x := by
  rw [lgst_eq_logistic, ofBits_half, ofBits_one]
  induction x using EReal.rec with
  | bot =>
    rw [EReal.coe_mul_bot_of_pos (by norm_num), Ideal.tanh_bot, Ideal.logistic_bot]
    have : (-1 : EReal) + 1 = 0 := by
      rw [← EReal.coe_one, ← EReal.coe_neg, ← EReal.coe_add]; norm_num
    rw [this, mul_zero]
  | top =>
    rw [EReal.coe_mul_top_of_pos (by norm_num), Ideal.tanh_top, Ideal.logistic_top]
    rw [show ((1 : EReal) + 1) = ((2 : ℝ) : EReal) by rw [← EReal.coe_one, ← EReal.coe_add]; norm_num,
      ← EReal.coe_mul]
    norm_num
  | coe r =>
    rw [← EReal.coe_mul, Ideal.tanh_coe, Ideal.logistic_coe, ← EReal.coe_one, ← EReal.coe_add, ← EReal.coe_mul,
      real_half_tanh]

/-! ## One row of the cell -/

/-- The weights: W_ih [2048, 256], W_hh [2048, 512], b_ih, b_hh [2048], W1, W2 [512, 512], b1, b2 [512]. -/
structure Params where
  Wih : Fin 2048 → Fin 256 → EReal
  Whh : Fin 2048 → Fin 512 → EReal
  bih : Fin 2048 → EReal
  bhh : Fin 2048 → EReal
  W1 : Fin 512 → Fin 512 → EReal
  b1 : Fin 512 → EReal
  W2 : Fin 512 → Fin 512 → EReal
  b2 : Fin 512 → EReal

/-- Entry q of the quarter of the pre-activations that starts at `off`. -/
def col (off : Nat) (h : off + 512 ≤ 2048) (q : Fin 512) : Fin 2048 := ⟨off + q.val, by have := q.isLt; omega⟩

variable {R : Type}

/-- The pre-activations z of a family of rows with inputs x and hidden states h. -/
def pre (P : Params) (x : R → Fin 256 → EReal) (h : R → Fin 512 → EReal) (r : R) (j : Fin 2048) : EReal :=
  ((∑ k, x r k * P.Wih j k) + P.bih j + ∑ k, h r k * P.Whh j k) + P.bhh j

/-- The new cell state f · c + i · g from pre-activations z and cell state c. -/
def cellC (z : R → Fin 2048 → EReal) (c : R → Fin 512 → EReal) (r : R) (q : Fin 512) : EReal :=
  lgst (z r (col 512 (by norm_num) q)) * c r q + lgst (z r (col 0 (by norm_num) q)) * Ideal.tanh (z r (col 1024 (by norm_num) q))

/-- The new hidden state o · tanh(new cell state). -/
def cellH (z : R → Fin 2048 → EReal) (c : R → Fin 512 → EReal) (r : R) (q : Fin 512) : EReal :=
  lgst (z r (col 1536 (by norm_num) q)) * Ideal.tanh (cellC z c r q)

/-- The first linear map of the vector field, before its bias: Σ_k' h_k' · W1[k, k']. -/
def lin (P : Params) (h : R → Fin 512 → EReal) (r : R) (k : Fin 512) : EReal :=
  ∑ k', h r k' * P.W1 k k'

/-- The rest of the vector field from the values a of that linear map: Σ_k tanh(a_k + b1[k]) · W2[q, k] + b2[q]. -/
def fieldTail (P : Params) (a : R → Fin 512 → EReal) (r : R) (q : Fin 512) : EReal :=
  (∑ k, Ideal.tanh (a r k + P.b1 k) * P.W2 q k) + P.b2 q

/-- The vector field F at hidden states h. -/
def field (P : Params) (h : R → Fin 512 → EReal) : R → Fin 512 → EReal :=
  fieldTail P (lin P h)

/-- A hidden state moved along a field value: h + s · k, the scale s one number per row. -/
def moved (h : R → Fin 512 → EReal) (s : R → EReal) (k : R → Fin 512 → EReal) (r : R) (q : Fin 512) : EReal :=
  h r q + s r * k r q

/-- The cell state after the first update. -/
def c1 (P : Params) (x : R → Fin 256 → EReal) (h0 c0 : R → Fin 512 → EReal) : R → Fin 512 → EReal :=
  cellC (pre P x h0) c0
/-- The hidden state after the first update. -/
def h1 (P : Params) (x : R → Fin 256 → EReal) (h0 c0 : R → Fin 512 → EReal) : R → Fin 512 → EReal :=
  cellH (pre P x h0) c0
/-- The cell state after the second update: the second result. -/
def newC (P : Params) (x : R → Fin 256 → EReal) (h0 c0 : R → Fin 512 → EReal) : R → Fin 512 → EReal :=
  cellC (pre P x (h1 P x h0 c0)) (c1 P x h0 c0)
/-- The hidden state after the second update. -/
def newH (P : Params) (x : R → Fin 256 → EReal) (h0 c0 : R → Fin 512 → EReal) : R → Fin 512 → EReal :=
  cellH (pre P x (h1 P x h0 c0)) (c1 P x h0 c0)

/-- The Runge-Kutta step from hidden states h with step lengths dt: the first result. -/
def rk4 (P : Params) (h : R → Fin 512 → EReal) (dt : R → EReal) (r : R) (q : Fin 512) : EReal :=
  h r q + Ideal.div (dt r) (Ideal.ofBits .f32 0x40C00000#32) *
    (((field P h r q
        + Ideal.ofBits .f32 0x40000000#32 * field P (moved h (fun r => Ideal.ofBits .f32 0x3F000000#32 * dt r) (field P h)) r q)
        + Ideal.ofBits .f32 0x40000000#32 * field P (moved h (fun r => Ideal.ofBits .f32 0x3F000000#32 * dt r)
            (field P (moved h (fun r => Ideal.ofBits .f32 0x3F000000#32 * dt r) (field P h)))) r q)
        + field P (moved h dt (field P (moved h (fun r => Ideal.ofBits .f32 0x3F000000#32 * dt r)
            (field P (moved h (fun r => Ideal.ofBits .f32 0x3F000000#32 * dt r) (field P h)))))) r q)

/-- The first result: the Runge-Kutta step from the twice-updated hidden state, over dt = t1 - t0. -/
def outH (P : Params) (x : R → Fin 256 → EReal) (h0 c0 : R → Fin 512 → EReal) (t0 t1 : R → EReal) : R → Fin 512 → EReal :=
  rk4 P (newH P x h0 c0) (fun r => t1 r - t0 r)

end OdeLstm

end
-- ==== Proof.KernelRows.lean ====
/-
  The kernel body's values, entry by entry. Each value the body computes is a matrix with one row per batch row of the
  block; this file reads each at an entry (p, q), from what its operands hold at their entries, and finds the formulas
  of one row of the cell: the pre-activations (two matrix products and the two biases, which the kernel adds in another
  order, equal because addition of extended reals is commutative and associative), the gates (the kernel spells the
  logistic function 1/2 · (tanh(x / 2) + 1): the one law of the cell's formulas), the cell and hidden states, the step
  length, the vector field and the Runge-Kutta combination.
-/
import proofs.«179214_j9947144257770_2_alg».proof.Proof.Gen.KernelIdeal.Skeleton
import proofs.«179214_j9947144257770_2_alg».proof.Proof.LibRowOps
import proofs.«179214_j9947144257770_2_alg».proof.Proof.CellSpec
import Idealize.ShloMosaic.Lib.ValueLayout

noncomputable section

open scoped BigOperators

namespace Cert.KernelIdeal.Rows

open Idealize.ShloMosaic Idealize.ShloMosaic.ValueIdx Cert.KernelIdeal Cert.KernelIdeal.Gen OdeLstm

/-- A hyperbolic tangent of a matrix at an entry. -/
theorem tanh_at {s : Shape} {φ : FTy} (a : FVec Ideal s φ) (i : s.Idx) : tanh a i = Ideal.tanh (a i) := rfl

/-- The three matrix products of the body at an entry: the sum over the contracted coordinate. -/
theorem mm_x (A : FVec Ideal S512x256 .bf16) (B : FVec Ideal S256x2048 .bf16) (a : Fin 512) (b : Fin 2048) :
    matmul dot_S512x256_S256x2048_S512x2048_1_0_0_1_n_n none A B (constant S512x2048 .f32 0x00000000#32) (ix2 a b)
      = ∑ c : Fin 256, A (ix2 a c) * B (ix2 c b) :=
  RowOps.matmul_apply _ rfl none A B a b
theorem mm_h (A : FVec Ideal S512x512 .bf16) (B : FVec Ideal S512x2048 .bf16) (a : Fin 512) (b : Fin 2048) :
    matmul dot_S512x512_S512x2048_S512x2048_1_0_0_1_n_n none A B (constant S512x2048 .f32 0x00000000#32) (ix2 a b)
      = ∑ c : Fin 512, A (ix2 a c) * B (ix2 c b) :=
  RowOps.matmul_apply _ rfl none A B a b
theorem mm_f (A : FVec Ideal S512x512 .bf16) (B : FVec Ideal S512x512 .bf16) (a : Fin 512) (b : Fin 512) :
    matmul dot_S512x512_S512x512_S512x512_1_0_0_1_n_n none A B (constant S512x512 .f32 0x00000000#32) (ix2 a b)
      = ∑ c : Fin 512, A (ix2 a c) * B (ix2 c b) :=
  RowOps.matmul_apply _ rfl none A B a b

/-- The sum of two products and a combined bias is the pre-activation, which adds the two biases one after the other. -/
theorem bias_order (a b c d : EReal) : (a + b) + (c + d) = ((a + c) + b) + d := by
  rw [add_add_add_comm, ← add_assoc]

/-! ## The first update, from the loaded blocks -/

section First
variable (P : Params) (X : Fin 512 → Fin 256 → EReal) (H : Fin 512 → Fin 512 → EReal)
  (v0 : Vec Ideal S256x2048 .bf16) (v2 : Vec Ideal S512x2048 .bf16) (v4 : Vec Ideal S1x2048 .f32)
  (v6 : Vec Ideal S512x256 .f32) (v7 : Vec Ideal S512x512 .f32)
  (h0 : ∀ k j, v0 (ix2 k j) = P.Wih j k) (h2 : ∀ k j, v2 (ix2 k j) = P.Whh j k)
  (h4 : ∀ z j, v4 (ix2 z j) = P.bih j + P.bhh j)
  (h6 : ∀ p k, v6 (ix2 p k) = X p k) (h7 : ∀ p k, v7 (ix2 p k) = H p k)
include h0 h2 h4 h6 h7

/-- The pre-activations of the first update. -/
theorem pay5_at (p : Fin 512) (j : Fin 2048) : k0_pay5 v0 v2 v4 v6 v7 (ix2 p j) = pre P X H p j := by
  unfold k0_pay5 k0_pay2 k0_pay3 k0_pay4
  simp only [addf_apply, truncf_apply, shapeCast_self, mm_x, mm_h, broadcastTo_1b_ab_apply, h0, h2, h4, h6, h7]
  exact bias_order _ _ _ _

/-- The input gate of the first update. -/
theorem pay6_at (p q : Fin 512) :
    k0_pay6 v0 v2 v4 v6 v7 (ix2 p q) = lgst (pre P X H p (col 0 (by norm_num) q)) := by
  unfold k0_pay6
  simp only [mulf_apply, addf_apply, tanh_at, broadcast_apply, slice2_axis1_eq, Ideal.ofBits_def,
    pay5_at P X H v0 v2 v4 v6 v7 h0 h2 h4 h6 h7]
  exact half_tanh_eq_lgst _

/-- The forget gate of the first update. -/
theorem pay7_at (p q : Fin 512) :
    k0_pay7 v0 v2 v4 v6 v7 (ix2 p q) = lgst (pre P X H p (col 512 (by norm_num) q)) := by
  unfold k0_pay7
  simp only [mulf_apply, addf_apply, tanh_at, broadcast_apply, slice2_axis1_eq, Ideal.ofBits_def,
    pay5_at P X H v0 v2 v4 v6 v7 h0 h2 h4 h6 h7]
  exact half_tanh_eq_lgst _

/-- The candidate of the first update. -/
theorem pay8_at (p q : Fin 512) :
    k0_pay8 v0 v2 v4 v6 v7 (ix2 p q) = Ideal.tanh (pre P X H p (col 1024 (by norm_num) q)) := by
  unfold k0_pay8
  simp only [tanh_at, slice2_axis1_eq, pay5_at P X H v0 v2 v4 v6 v7 h0 h2 h4 h6 h7]
  rfl

/-- The output gate of the first update, before its last two operations: tanh of half the pre-activation. -/
theorem pay9_at (p q : Fin 512) :
    k0_pay9 v0 v2 v4 v6 v7 (ix2 p q)
      = Ideal.tanh (Ideal.ofBits .f32 0x3F000000#32 * pre P X H p (col 1536 (by norm_num) q)) := by
  unfold k0_pay9
  simp only [mulf_apply, tanh_at, broadcast_apply, slice2_axis1_eq, Ideal.ofBits_def,
    pay5_at P X H v0 v2 v4 v6 v7 h0 h2 h4 h6 h7]
  rfl

end First

/-! ## The second update, from the first one's gates -/

section Second
variable (P : Params) (X : Fin 512 → Fin 256 → EReal) (Z : Fin 512 → Fin 2048 → EReal) (C : Fin 512 → Fin 512 → EReal)
  (v1 : FVec Ideal S256x2048 .bf16) (v3 : FVec Ideal S512x2048 .bf16) (v5 : FVec Ideal S1x2048 .f32)
  (v6 : Vec Ideal S512x256 .f32) (v8 : Vec Ideal S512x512 .f32)
  (v26 v33 v34 v37 : FVec Ideal S512x512 .f32)
  (h1 : ∀ k j, v1 (ix2 k j) = P.Wih j k) (h3 : ∀ k j, v3 (ix2 k j) = P.Whh j k)
  (h5 : ∀ z j, v5 (ix2 z j) = P.bih j + P.bhh j)
  (h6 : ∀ p k, v6 (ix2 p k) = X p k) (h8 : ∀ p q, v8 (ix2 p q) = C p q)
  (h26 : ∀ p q, v26 (ix2 p q) = lgst (Z p (col 0 (by norm_num) q)))
  (h33 : ∀ p q, v33 (ix2 p q) = lgst (Z p (col 512 (by norm_num) q)))
  (h34 : ∀ p q, v34 (ix2 p q) = Ideal.tanh (Z p (col 1024 (by norm_num) q)))
  (h37 : ∀ p q, v37 (ix2 p q) = Ideal.tanh (Ideal.ofBits .f32 0x3F000000#32 * Z p (col 1536 (by norm_num) q)))

include h8 h26 h33 h34 in
/-- The cell state after the update whose gates these are. -/
theorem pay10_at (p q : Fin 512) : k0_pay10 v8 v26 v33 v34 (ix2 p q) = cellC Z C p q := by
  unfold k0_pay10
  simp only [addf_apply, mulf_apply, h8, h26, h33, h34]
  rfl

include h1 h3 h5 h6 h8 h26 h33 h34 h37

/-- The pre-activations of the next update: its hidden state is the output gate times tanh of the cell state. -/
theorem pay11_at (p : Fin 512) (j : Fin 2048) :
    k0_pay11 v1 v3 v5 v6 v8 v26 v33 v34 v37 (ix2 p j) = pre P X (cellH Z C) p j := by
  unfold k0_pay11
  simp only [addf_apply, mulf_apply, tanh_at, truncf_apply, broadcast_apply, mm_x, mm_h, broadcastTo_1b_ab_apply,
    Ideal.ofBits_def, pay10_at Z C v8 v26 v33 v34 h8 h26 h33 h34, h1, h3, h5, h6, h37, half_tanh_eq_lgst]
  exact bias_order _ _ _ _

/-- The cell state after the next update. -/
theorem pay12_at (p q : Fin 512) :
    k0_pay12 v1 v3 v5 v6 v8 v26 v33 v34 v37 (ix2 p q) = cellC (pre P X (cellH Z C)) (cellC Z C) p q := by
  unfold k0_pay12
  simp only [addf_apply, mulf_apply, tanh_at, broadcast_apply, slice2_axis1_eq, Ideal.ofBits_def,
    pay11_at P X Z C v1 v3 v5 v6 v8 v26 v33 v34 v37 h1 h3 h5 h6 h8 h26 h33 h34 h37,
    pay10_at Z C v8 v26 v33 v34 h8 h26 h33 h34, half_tanh_eq_lgst]
  rfl

/-- The hidden state after the next update. -/
theorem pay13_at (p q : Fin 512) :
    k0_pay13 v1 v3 v5 v6 v8 v26 v33 v34 v37 (ix2 p q) = cellH (pre P X (cellH Z C)) (cellC Z C) p q := by
  unfold k0_pay13
  simp only [mulf_apply, addf_apply, tanh_at, broadcast_apply, slice2_axis1_eq, Ideal.ofBits_def,
    pay11_at P X Z C v1 v3 v5 v6 v8 v26 v33 v34 v37 h1 h3 h5 h6 h8 h26 h33 h34 h37,
    pay12_at P X Z C v1 v3 v5 v6 v8 v26 v33 v34 v37 h1 h3 h5 h6 h8 h26 h33 h34 h37, half_tanh_eq_lgst]
  rfl

end Second

/-! ## The vector field and the Runge-Kutta step, from a hidden state -/

section Field
variable (P : Params) (Hh : Fin 512 → Fin 512 → EReal) (T0 T1 : Fin 512 → EReal)
  (v84 : FVec Ideal S512x512 .f32) (v85 v87 : Vec Ideal S512x512 .bf16) (v89 v91 : Vec Ideal S1x512 .f32)
  (v93 v94 : Vec Ideal S512x1 .f32)
  (h84 : ∀ p k, v84 (ix2 p k) = Hh p k)
  (h85 : ∀ k q, v85 (ix2 k q) = P.W1 q k) (h87 : ∀ k q, v87 (ix2 k q) = P.W2 q k)
  (h89 : ∀ z q, v89 (ix2 z q) = P.b1 q) (h91 : ∀ z q, v91 (ix2 z q) = P.b2 q)
  (h93 : ∀ p z, v93 (ix2 p z) = T1 p) (h94 : ∀ p z, v94 (ix2 p z) = T0 p)

include h93 h94 in
/-- The step length of a row. -/
theorem pay18_at (p : Fin 512) (z : Fin 1) : k0_pay18 v93 v94 (ix2 p z) = T1 p - T0 p := by
  unfold k0_pay18
  simp only [subf_apply, h93, h94]

include h84 h85 h87 h89 h91 in
/-- The first field value. -/
theorem pay19_at (p q : Fin 512) : k0_pay19 v84 v85 v87 v89 v91 (ix2 p q) = field P Hh p q := by
  unfold k0_pay19 k0_pay14 k0_pay15 k0_pay16 k0_pay17
  simp only [addf_apply, tanh_at, truncf_apply, shapeCast_self, mm_f, broadcastTo_1b_ab_apply, h84, h85, h87, h89, h91]
  rfl

include h84 h85 h87 h89 h91 h93 h94

/-- The second field value: the field at the hidden state moved half a step along the first. -/
theorem pay20_at (p q : Fin 512) :
    k0_pay20 v84 v85 v87 v89 v91 v93 v94 (ix2 p q)
      = field P (moved Hh (fun p => Ideal.ofBits .f32 0x3F000000#32 * (T1 p - T0 p)) (field P Hh)) p q := by
  unfold k0_pay20 k0_pay14 k0_pay15 k0_pay16 k0_pay17
  simp only [addf_apply, mulf_apply, tanh_at, truncf_apply, broadcast_apply, shapeCast_self, mm_f, broadcastTo_1b_ab_apply,
    RowOps.col_to_apply, Ideal.ofBits_def, pay18_at T0 T1 v93 v94 h93 h94,
    pay19_at P Hh v84 v85 v87 v89 v91 h84 h85 h87 h89 h91, h84, h85, h87, h89, h91]
  rfl

/-- The first linear map of the third field value, at the hidden state moved half a step along the second. -/
theorem pay21_at (p k : Fin 512) :
    k0_pay21 v84 v85 v87 v89 v91 v93 v94 (ix2 p k)
      = lin P (moved Hh (fun p => Ideal.ofBits .f32 0x3F000000#32 * (T1 p - T0 p))
          (field P (moved Hh (fun p => Ideal.ofBits .f32 0x3F000000#32 * (T1 p - T0 p)) (field P Hh)))) p k := by
  unfold k0_pay21 k0_pay14
  simp only [addf_apply, mulf_apply, truncf_apply, broadcast_apply, shapeCast_self, mm_f,
    RowOps.col_to_apply, Ideal.ofBits_def, pay18_at T0 T1 v93 v94 h93 h94,
    pay20_at P Hh T0 T1 v84 v85 v87 v89 v91 v93 v94 h84 h85 h87 h89 h91 h93 h94, h84, h85]
  rfl

end Field

/-- The stored first result: the rest of the third field value, the fourth, and the Runge-Kutta combination. -/
theorem pay1_at (P : Params) (Hh : Fin 512 → Fin 512 → EReal) (Dt : Fin 512 → EReal)
    (K1 K2 A3 : Fin 512 → Fin 512 → EReal)
    (v84 : FVec Ideal S512x512 .f32) (v86 v88 : FVec Ideal S512x512 .bf16) (v90 v92 : FVec Ideal S1x512 .f32)
    (v95 : FVec Ideal S512x1 .f32) (v104 v118 v125 : FVec Ideal S512x512 .f32)
    (h84 : ∀ p k, v84 (ix2 p k) = Hh p k)
    (h86 : ∀ k q, v86 (ix2 k q) = P.W1 q k) (h88 : ∀ k q, v88 (ix2 k q) = P.W2 q k)
    (h90 : ∀ z q, v90 (ix2 z q) = P.b1 q) (h92 : ∀ z q, v92 (ix2 z q) = P.b2 q)
    (h95 : ∀ p z, v95 (ix2 p z) = Dt p)
    (h104 : ∀ p q, v104 (ix2 p q) = K1 p q) (h118 : ∀ p q, v118 (ix2 p q) = K2 p q)
    (h125 : ∀ p k, v125 (ix2 p k) = A3 p k) (p q : Fin 512) :
    k0_pay1 v84 v86 v88 v90 v92 v95 v104 v118 v125 (ix2 p q)
      = Hh p q + Ideal.div (Dt p) (Ideal.ofBits .f32 0x40C00000#32) *
          (((K1 p q + Ideal.ofBits .f32 0x40000000#32 * K2 p q) + Ideal.ofBits .f32 0x40000000#32 * fieldTail P A3 p q)
            + field P (moved Hh Dt (fieldTail P A3)) p q) := by
  unfold k0_pay1
  simp only [addf_apply, mulf_apply, divf_apply, tanh_at, truncf_apply, broadcast_apply, mm_f, broadcastTo_1b_ab_apply,
    RowOps.col_to_apply, Ideal.ofBits_def, h84, h86, h88, h90, h92, h95, h104, h118, h125]
  rfl

end Cert.KernelIdeal.Rows

end
-- ==== Proof.KernelCell.lean ====
/-
  The two blocks the kernel body leaves, entry by entry, from the eleven blocks it finds. The body's values are named
  here as the printed body nests them — the hidden and cell states after the two updates from the input, hidden, cell
  and LSTM-weight blocks; the Runge-Kutta step from a hidden state, the time block and the field's weight blocks — and
  each is the cell's formula on the rows of the blocks.
-/
import proofs.«179214_j9947144257770_2_alg».proof.Proof.Gen.KernelIdeal.Frame
import proofs.«179214_j9947144257770_2_alg».proof.Proof.KernelRows
import Idealize.ShloMosaic.Lib.Pipeline.Value

noncomputable section

open scoped BigOperators

namespace Cert.KernelIdeal.Cell

open Idealize.ShloMosaic Idealize.ShloMosaic.ValueIdx Cert.KernelIdeal Cert.KernelIdeal.Gen OdeLstm

theorem hz : (![0, 0] : Fin 2 → Nat) = fun _ => 0 := funext fun a => by fin_cases a <;> rfl

/-! ## The two updates -/

section Updates
variable (x0 : Vec Ideal S512x256 .f32) (x1 x2 : Vec Ideal S512x512 .f32)
  (x4 : Vec Ideal S256x2048 .bf16) (x5 : Vec Ideal S512x2048 .bf16) (x6 : Vec Ideal S1x2048 .f32)

/-- The hidden state after the two updates, as the body nests it. -/
def kNewH : FVec Ideal S512x512 .f32 :=
  k0_pay13 (k0_pay2 x4) (k0_pay3 x5) (k0_pay4 x6) x0 x2 (k0_pay6 x4 x5 x6 x0 x1) (k0_pay7 x4 x5 x6 x0 x1)
    (k0_pay8 x4 x5 x6 x0 x1) (k0_pay9 x4 x5 x6 x0 x1)

/-- The cell state after the two updates, as the body nests it: the second stored block. -/
def kNewC : FVec Ideal S512x512 .f32 :=
  k0_pay12 (k0_pay2 x4) (k0_pay3 x5) (k0_pay4 x6) x0 x2 (k0_pay6 x4 x5 x6 x0 x1) (k0_pay7 x4 x5 x6 x0 x1)
    (k0_pay8 x4 x5 x6 x0 x1) (k0_pay9 x4 x5 x6 x0 x1)

variable (P : Params) (X : Fin 512 → Fin 256 → EReal) (H0 C0 : Fin 512 → Fin 512 → EReal)
  (h0 : ∀ p k, x0 (ix2 p k) = X p k) (h1 : ∀ p k, x1 (ix2 p k) = H0 p k) (h2 : ∀ p k, x2 (ix2 p k) = C0 p k)
  (h4 : ∀ k j, x4 (ix2 k j) = P.Wih j k) (h5 : ∀ k j, x5 (ix2 k j) = P.Whh j k)
  (h6 : ∀ z j, x6 (ix2 z j) = P.bih j + P.bhh j)
include h0 h1 h2 h4 h5 h6

theorem kNewC_at (p q : Fin 512) : kNewC x0 x1 x2 x4 x5 x6 (ix2 p q) = newC P X H0 C0 p q :=
  Rows.pay12_at P X (pre P X H0) C0 (k0_pay2 x4) (k0_pay3 x5) (k0_pay4 x6) x0 x2
    (k0_pay6 x4 x5 x6 x0 x1) (k0_pay7 x4 x5 x6 x0 x1) (k0_pay8 x4 x5 x6 x0 x1) (k0_pay9 x4 x5 x6 x0 x1)
    (fun k j => by unfold k0_pay2; rw [shapeCast_self]; exact h4 k j)
    (fun k j => by unfold k0_pay3; rw [shapeCast_self]; exact h5 k j)
    (fun z j => by unfold k0_pay4; rw [shapeCast_self]; exact h6 z j)
    h0 h2
    (Rows.pay6_at P X H0 x4 x5 x6 x0 x1 h4 h5 h6 h0 h1) (Rows.pay7_at P X H0 x4 x5 x6 x0 x1 h4 h5 h6 h0 h1)
    (Rows.pay8_at P X H0 x4 x5 x6 x0 x1 h4 h5 h6 h0 h1) (Rows.pay9_at P X H0 x4 x5 x6 x0 x1 h4 h5 h6 h0 h1) p q

theorem kNewH_at (p q : Fin 512) : kNewH x0 x1 x2 x4 x5 x6 (ix2 p q) = newH P X H0 C0 p q :=
  Rows.pay13_at P X (pre P X H0) C0 (k0_pay2 x4) (k0_pay3 x5) (k0_pay4 x6) x0 x2
    (k0_pay6 x4 x5 x6 x0 x1) (k0_pay7 x4 x5 x6 x0 x1) (k0_pay8 x4 x5 x6 x0 x1) (k0_pay9 x4 x5 x6 x0 x1)
    (fun k j => by unfold k0_pay2; rw [shapeCast_self]; exact h4 k j)
    (fun k j => by unfold k0_pay3; rw [shapeCast_self]; exact h5 k j)
    (fun z j => by unfold k0_pay4; rw [shapeCast_self]; exact h6 z j)
    h0 h2
    (Rows.pay6_at P X H0 x4 x5 x6 x0 x1 h4 h5 h6 h0 h1) (Rows.pay7_at P X H0 x4 x5 x6 x0 x1 h4 h5 h6 h0 h1)
    (Rows.pay8_at P X H0 x4 x5 x6 x0 x1 h4 h5 h6 h0 h1) (Rows.pay9_at P X H0 x4 x5 x6 x0 x1 h4 h5 h6 h0 h1) p q

end Updates

/-! ## The Runge-Kutta step -/

section Step
variable (v84 : FVec Ideal S512x512 .f32) (x3 : Vec Ideal S512x2 .f32)
  (x7 : Vec Ideal S512x512 .bf16) (x8 : Vec Ideal S1x512 .f32) (x9 : Vec Ideal S512x512 .bf16) (x10 : Vec Ideal S1x512 .f32)

/-- The first stored block from the hidden state v84, as the body nests it. -/
def kOut : FVec Ideal S512x512 .f32 :=
  k0_pay1 v84 (k0_pay14 x7) (k0_pay15 x9) (k0_pay16 x8) (k0_pay17 x10) (k0_pay18 (View.ld x3 r0_6) (View.ld x3 r0_7))
    (k0_pay19 v84 x7 x9 x8 x10) (k0_pay20 v84 x7 x9 x8 x10 (View.ld x3 r0_6) (View.ld x3 r0_7))
    (k0_pay21 v84 x7 x9 x8 x10 (View.ld x3 r0_6) (View.ld x3 r0_7))

/-- The later time of a row: column 1 of the time block. -/
theorem ld6_at (p : Fin 512) (z : Fin 1) : View.ld x3 r0_6 (ix2 p z) = x3 (ix2 p (1 : Fin 2)) := by
  show x3 (r0_6.idx (ix2 p z)) = _
  refine congrArg x3 (funext fun a => Fin.ext ?_)
  match a with
  | ⟨0, _⟩ => show 0 + 1 * p.val = p.val; omega
  | ⟨1, _⟩ => show 1 + 1 * z.val = 1; omega

/-- The earlier time of a row: column 0 of the time block. -/
theorem ld7_at (p : Fin 512) (z : Fin 1) : View.ld x3 r0_7 (ix2 p z) = x3 (ix2 p (0 : Fin 2)) := by
  show x3 (r0_7.idx (ix2 p z)) = _
  refine congrArg x3 (funext fun a => Fin.ext ?_)
  match a with
  | ⟨0, _⟩ => show 0 + 1 * p.val = p.val; omega
  | ⟨1, _⟩ => show 0 + 1 * z.val = 0; omega

variable (P : Params) (Hh : Fin 512 → Fin 512 → EReal) (T0 T1 : Fin 512 → EReal)
  (h84 : ∀ p k, v84 (ix2 p k) = Hh p k)
  (h30 : ∀ p, x3 (ix2 p (0 : Fin 2)) = T0 p) (h31 : ∀ p, x3 (ix2 p (1 : Fin 2)) = T1 p)
  (h7 : ∀ k q, x7 (ix2 k q) = P.W1 q k) (h8 : ∀ z q, x8 (ix2 z q) = P.b1 q)
  (h9 : ∀ k q, x9 (ix2 k q) = P.W2 q k) (h10 : ∀ z q, x10 (ix2 z q) = P.b2 q)
include h84 h30 h31 h7 h8 h9 h10

theorem kOut_at (p q : Fin 512) :
    kOut v84 x3 x7 x8 x9 x10 (ix2 p q) = rk4 P Hh (fun p => T1 p - T0 p) p q :=
  have e6 : ∀ p z, View.ld x3 r0_6 (ix2 p z) = T1 p := fun p z => (ld6_at x3 p z).trans (h31 p)
  have e7 : ∀ p z, View.ld x3 r0_7 (ix2 p z) = T0 p := fun p z => (ld7_at x3 p z).trans (h30 p)
  Rows.pay1_at P Hh (fun p => T1 p - T0 p) (field P Hh)
    (field P (moved Hh (fun p => Ideal.ofBits .f32 0x3F000000#32 * (T1 p - T0 p)) (field P Hh)))
    (lin P (moved Hh (fun p => Ideal.ofBits .f32 0x3F000000#32 * (T1 p - T0 p))
      (field P (moved Hh (fun p => Ideal.ofBits .f32 0x3F000000#32 * (T1 p - T0 p)) (field P Hh)))))
    v84 (k0_pay14 x7) (k0_pay15 x9) (k0_pay16 x8) (k0_pay17 x10) (k0_pay18 (View.ld x3 r0_6) (View.ld x3 r0_7))
    (k0_pay19 v84 x7 x9 x8 x10) (k0_pay20 v84 x7 x9 x8 x10 (View.ld x3 r0_6) (View.ld x3 r0_7))
    (k0_pay21 v84 x7 x9 x8 x10 (View.ld x3 r0_6) (View.ld x3 r0_7))
    h84
    (fun k q => by unfold k0_pay14; rw [shapeCast_self]; exact h7 k q)
    (fun k q => by unfold k0_pay15; rw [shapeCast_self]; exact h9 k q)
    (fun z q => by unfold k0_pay16; rw [shapeCast_self]; exact h8 z q)
    (fun z q => by unfold k0_pay17; rw [shapeCast_self]; exact h10 z q)
    (Rows.pay18_at T0 T1 (View.ld x3 r0_6) (View.ld x3 r0_7) e6 e7)
    (Rows.pay19_at P Hh v84 x7 x9 x8 x10 h84 h7 h9 h8 h10)
    (Rows.pay20_at P Hh T0 T1 v84 x7 x9 x8 x10 (View.ld x3 r0_6) (View.ld x3 r0_7) h84 h7 h9 h8 h10 e6 e7)
    (Rows.pay21_at P Hh T0 T1 v84 x7 x9 x8 x10 (View.ld x3 r0_6) (View.ld x3 r0_7) h84 h7 h9 h8 h10 e6 e7) p q

end Step

/-! ## The two blocks the body leaves -/

section Blocks
variable (x0 : Vec Ideal S512x256 .f32) (x1 x2 : Vec Ideal S512x512 .f32) (x3 : Vec Ideal S512x2 .f32)
  (x4 : Vec Ideal S256x2048 .bf16) (x5 : Vec Ideal S512x2048 .bf16) (x6 : Vec Ideal S1x2048 .f32)
  (x7 : Vec Ideal S512x512 .bf16) (x8 : Vec Ideal S1x512 .f32) (x9 : Vec Ideal S512x512 .bf16) (x10 : Vec Ideal S1x512 .f32)
  (P : Params) (X : Fin 512 → Fin 256 → EReal) (H0 C0 : Fin 512 → Fin 512 → EReal) (T0 T1 : Fin 512 → EReal)
  (h0 : ∀ p k, x0 (ix2 p k) = X p k) (h1 : ∀ p k, x1 (ix2 p k) = H0 p k) (h2 : ∀ p k, x2 (ix2 p k) = C0 p k)
  (h30 : ∀ p, x3 (ix2 p (0 : Fin 2)) = T0 p) (h31 : ∀ p, x3 (ix2 p (1 : Fin 2)) = T1 p)
  (h4 : ∀ k j, x4 (ix2 k j) = P.Wih j k) (h5 : ∀ k j, x5 (ix2 k j) = P.Whh j k)
  (h6 : ∀ z j, x6 (ix2 z j) = P.bih j + P.bhh j)
  (h7 : ∀ k q, x7 (ix2 k q) = P.W1 q k) (h8 : ∀ z q, x8 (ix2 z q) = P.b1 q)
  (h9 : ∀ k q, x9 (ix2 k q) = P.W2 q k) (h10 : ∀ z q, x10 (ix2 z q) = P.b2 q)

include h0 h1 h2 h4 h5 h6 in
/-- The second result's block: the cell state after the two updates. -/
theorem out12_at (p q : Fin 512) :
    out0_12 x0 x1 x2 x3 x4 x5 x6 x7 x8 x9 x10 (ix2 p q) = newC P X H0 C0 p q := by
  unfold out0_12
  rw [View.canon_unit_zero hz]
  simp only [View.ld_unit_zero (S := S256x2048) hz, View.ld_unit_zero (S := S512x2048) hz,
    View.ld_unit_zero (S := S1x2048) hz, View.ld_unit_zero (S := S512x256) hz, View.ld_unit_zero (S := S512x512) hz]
  exact kNewC_at x0 x1 x2 x4 x5 x6 P X H0 C0 h0 h1 h2 h4 h5 h6 p q

include h0 h1 h2 h30 h31 h4 h5 h6 h7 h8 h9 h10 in
/-- The first result's block: the Runge-Kutta step from the twice-updated hidden state. -/
theorem out11_at (p q : Fin 512) :
    out0_11 x0 x1 x2 x3 x4 x5 x6 x7 x8 x9 x10 (ix2 p q) = outH P X H0 C0 T0 T1 p q := by
  unfold out0_11
  rw [View.canon_unit_zero hz]
  simp only [View.ld_unit_zero (S := S256x2048) hz, View.ld_unit_zero (S := S512x2048) hz,
    View.ld_unit_zero (S := S1x2048) hz, View.ld_unit_zero (S := S512x256) hz, View.ld_unit_zero (S := S512x512) hz,
    View.ld_unit_zero (S := S1x512) hz]
  exact kOut_at (kNewH x0 x1 x2 x4 x5 x6) x3 x7 x8 x9 x10 P (newH P X H0 C0) T0 T1
    (kNewH_at x0 x1 x2 x4 x5 x6 P X H0 C0 h0 h1 h2 h4 h5 h6) h30 h31 h7 h8 h9 h10 p q

end Blocks

end Cert.KernelIdeal.Cell

end
-- ==== Proof.CellArrays.lean ====
/-
  The cell over whole arrays: the rows of a matrix, the weights read off the eight weight arrays, and the two results as
  arrays — entry (r, q) of each is the cell's formula for batch row r. A row's results depend on that row of the inputs
  alone, so re-indexing the rows of the inputs re-indexes the rows of the results.
-/
import proofs.«179214_j9947144257770_2_alg».proof.Proof.CellSpec
import Idealize.ShloMosaic.Lib.ValueIdx

noncomputable section

namespace OdeLstm

open Idealize.ShloMosaic Idealize.ShloMosaic.ValueIdx

/-- The rows of a matrix. -/
def rows {a n : Nat} (A : (⟨2, ![a, n]⟩ : Shape).Idx → EReal) : Fin a → Fin n → EReal := fun r k => A (ix2 r k)

/-- The entries of a vector. -/
def vec {n : Nat} (v : (⟨1, ![n]⟩ : Shape).Idx → EReal) : Fin n → EReal := fun k => v (ix1 k)

/-- The weights, from the eight weight arrays. -/
def paramsOf (a4 : (⟨2, ![2048, 256]⟩ : Shape).Idx → EReal) (a5 : (⟨2, ![2048, 512]⟩ : Shape).Idx → EReal)
    (a6 a7 : (⟨1, ![2048]⟩ : Shape).Idx → EReal) (a8 : (⟨2, ![512, 512]⟩ : Shape).Idx → EReal)
    (a9 : (⟨1, ![512]⟩ : Shape).Idx → EReal) (a10 : (⟨2, ![512, 512]⟩ : Shape).Idx → EReal)
    (a11 : (⟨1, ![512]⟩ : Shape).Idx → EReal) : Params where
  Wih := rows a4
  Whh := rows a5
  bih := vec a6
  bhh := vec a7
  W1 := rows a8
  b1 := vec a9
  W2 := rows a10
  b2 := vec a11

/-- The first result as an array: the Runge-Kutta step of every batch row. -/
def outHArr (a0 : (⟨2, ![32768, 256]⟩ : Shape).Idx → EReal) (a1 a2 : (⟨2, ![32768, 512]⟩ : Shape).Idx → EReal)
    (a3 : (⟨2, ![32768, 2]⟩ : Shape).Idx → EReal)
    (a4 : (⟨2, ![2048, 256]⟩ : Shape).Idx → EReal) (a5 : (⟨2, ![2048, 512]⟩ : Shape).Idx → EReal)
    (a6 a7 : (⟨1, ![2048]⟩ : Shape).Idx → EReal) (a8 : (⟨2, ![512, 512]⟩ : Shape).Idx → EReal)
    (a9 : (⟨1, ![512]⟩ : Shape).Idx → EReal) (a10 : (⟨2, ![512, 512]⟩ : Shape).Idx → EReal)
    (a11 : (⟨1, ![512]⟩ : Shape).Idx → EReal) : (⟨2, ![32768, 512]⟩ : Shape).Idx → EReal :=
  fun i => outH (paramsOf a4 a5 a6 a7 a8 a9 a10 a11) (rows a0) (rows a1) (rows a2)
    (fun r => a3 (ix2 r (0 : Fin 2))) (fun r => a3 (ix2 r (1 : Fin 2))) (i 0 : Fin 32768) (i 1 : Fin 512)

/-- The second result as an array: the cell state of every batch row after the two updates. -/
def newCArr (a0 : (⟨2, ![32768, 256]⟩ : Shape).Idx → EReal) (a1 a2 : (⟨2, ![32768, 512]⟩ : Shape).Idx → EReal)
    (a4 : (⟨2, ![2048, 256]⟩ : Shape).Idx → EReal) (a5 : (⟨2, ![2048, 512]⟩ : Shape).Idx → EReal)
    (a6 a7 : (⟨1, ![2048]⟩ : Shape).Idx → EReal) (a8 : (⟨2, ![512, 512]⟩ : Shape).Idx → EReal)
    (a9 : (⟨1, ![512]⟩ : Shape).Idx → EReal) (a10 : (⟨2, ![512, 512]⟩ : Shape).Idx → EReal)
    (a11 : (⟨1, ![512]⟩ : Shape).Idx → EReal) : (⟨2, ![32768, 512]⟩ : Shape).Idx → EReal :=
  fun i => newC (paramsOf a4 a5 a6 a7 a8 a9 a10 a11) (rows a0) (rows a1) (rows a2) (i 0 : Fin 32768) (i 1 : Fin 512)

/-! ## A row's results depend on that row alone -/

section Reindex
variable {R R' : Type} (f : R' → R) (P : Params) (x : R → Fin 256 → EReal) (h c : R → Fin 512 → EReal) (t0 t1 : R → EReal)

theorem pre_rows : pre P (fun p => x (f p)) (fun p => h (f p)) = fun p => pre P x h (f p) := rfl

theorem cellC_rows (z : R → Fin 2048 → EReal) :
    cellC (fun p => z (f p)) (fun p => c (f p)) = fun p => cellC z c (f p) := rfl

theorem cellH_rows (z : R → Fin 2048 → EReal) :
    cellH (fun p => z (f p)) (fun p => c (f p)) = fun p => cellH z c (f p) := rfl

theorem newC_rows : newC P (fun p => x (f p)) (fun p => h (f p)) (fun p => c (f p)) = fun p => newC P x h c (f p) := rfl

theorem newH_rows : newH P (fun p => x (f p)) (fun p => h (f p)) (fun p => c (f p)) = fun p => newH P x h c (f p) := rfl

theorem field_rows : field P (fun p => h (f p)) = fun p => field P h (f p) := rfl

theorem rk4_rows : rk4 P (fun p => h (f p)) (fun p => t0 (f p)) = fun p => rk4 P h t0 (f p) := rfl

theorem outH_rows :
    outH P (fun p => x (f p)) (fun p => h (f p)) (fun p => c (f p)) (fun p => t0 (f p)) (fun p => t1 (f p))
      = fun p => outH P x h c t0 t1 (f p) := by
  unfold outH
  rw [newH_rows]
  exact rk4_rows f P (newH P x h c) (fun r => t1 r - t0 r)

end Reindex

end OdeLstm

end
-- ==== Proof.KernelBlocks.lean ====
/-
  The blocks the kernel body finds at a grid point, entry by entry. Point t stages rows 512·t … 512·t + 511 of the four
  batch arrays (inputs, hidden states, cell states, times) and, at every point, the whole of the seven weight arrays the
  host prepared before the launch: the transposes of W_ih, W_hh, W1 and W2 (their change of float format is the identity
  on extended reals), the sum of the two LSTM biases as one row, and b1, b2 as rows.
-/
import proofs.«179214_j9947144257770_2_alg».proof.Proof.Gen.KernelIdeal.Value
import proofs.«179214_j9947144257770_2_alg».proof.Proof.CellArrays
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value OdeLstm

variable (m : (ℓ : Loc nD τ sig) → Buf (Elt Ideal) ℓ)

/-- The batch row that row p of point t's blocks is. -/
def rowOf (t : Fin cfg0.N) (p : Fin 512) : Fin 32768 :=
  ⟨512 * t.val + p.val, by have := t.isLt; have hN : cfg0.N = 64 := N_0; have := p.isLt; omega⟩

/-- The printed index maps over the 64 points: the batch windows and the two result windows are at block (t, 0), the
    weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## What the host prepared -/

/-- The transposed W_ih. -/
theorem V_v1_at (c : Dev nD) (k : Fin 256) (j : Fin 2048) :
    (V m c main_v1 : S256x2048.Idx → EReal) (ix2 k j)
      = (m ((c : Thread nD τ).loc main_arg4) : S2048x256.Idx → EReal) (ix2 j k) := by
  have e : (V m c main_v1 : S256x2048.Idx → EReal)
      = truncf (F := Ideal) .bf16 (transpose S256x2048 [1, 0] (m ((c : Thread nD τ).loc main_arg4) : S2048x256.Idx → EReal)
          transposes_S2048x256_S256x2048_1_0) bitsLt_bf16_f32 := by
    dsimp only [V, hostOps0]; after_results; all_goals rfl
  rw [e]
  exact transpose_ix2_apply _ _ k j

/-- The transposed W_hh. -/
theorem V_v3_at (c : Dev nD) (k : Fin 512) (j : Fin 2048) :
    (V m c main_v3 : S512x2048.Idx → EReal) (ix2 k j)
      = (m ((c : Thread nD τ).loc main_arg5) : S2048x512.Idx → EReal) (ix2 j k) := by
  have e : (V m c main_v3 : S512x2048.Idx → EReal)
      = truncf (F := Ideal) .bf16 (transpose S512x2048 [1, 0] (m ((c : Thread nD τ).loc main_arg5) : S2048x512.Idx → EReal)
          transposes_S2048x512_S512x2048_1_0) bitsLt_bf16_f32 := by
    dsimp only [V, hostOps0]; after_results; all_goals rfl
  rw [e]
  exact transpose_ix2_apply _ _ k j

/-- The two LSTM biases added, as one row. -/
theorem V_v5_at (c : Dev nD) (z : Fin 1) (j : Fin 2048) :
    (V m c main_v5 : S1x2048.Idx → EReal) (ix2 z j)
      = vec (m ((c : Thread nD τ).loc main_arg6)) j + vec (m ((c : Thread nD τ).loc main_arg7)) j := by
  have e : (V m c main_v5 : S1x2048.Idx → EReal)
      = shapeCast S1x2048 (addf (F := Ideal) (s := S2048) (φ := .f32) (m ((c : Thread nD τ).loc main_arg6)) (m ((c : Thread nD τ).loc main_arg7)))
          shapeCasts_S2048_S1x2048 := by
    dsimp only [V, hostOps0]; after_results; all_goals rfl
  rw [e]
  exact shapeCast_a_1a_apply _ _ z j

/-- The transposed W1. -/
theorem V_v7_at (c : Dev nD) (k q : Fin 512) :
    (V m c main_v7 : S512x512.Idx → EReal) (ix2 k q)
      = (m ((c : Thread nD τ).loc main_arg8) : S512x512.Idx → EReal) (ix2 q k) := by
  have e : (V m c main_v7 : S512x512.Idx → EReal)
      = truncf (F := Ideal) .bf16 (transpose S512x512 [1, 0] (m ((c : Thread nD τ).loc main_arg8) : S512x512.Idx → EReal)
          transposes_S512x512_S512x512_1_0) bitsLt_bf16_f32 := by
    dsimp only [V, hostOps0]; after_results; all_goals rfl
  rw [e]
  exact transpose_ix2_apply _ _ k q

/-- The transposed W2. -/
theorem V_v9_at (c : Dev nD) (k q : Fin 512) :
    (V m c main_v9 : S512x512.Idx → EReal) (ix2 k q)
      = (m ((c : Thread nD τ).loc main_arg10) : S512x512.Idx → EReal) (ix2 q k) := by
  have e : (V m c main_v9 : S512x512.Idx → EReal)
      = truncf (F := Ideal) .bf16 (transpose S512x512 [1, 0] (m ((c : Thread nD τ).loc main_arg10) : S512x512.Idx → EReal)
          transposes_S512x512_S512x512_1_0) bitsLt_bf16_f32 := by
    dsimp only [V, hostOps0]; after_results; all_goals rfl
  rw [e]
  exact transpose_ix2_apply _ _ k q

/-- b1 as a row. -/
theorem V_v10_at (c : Dev nD) (z : Fin 1) (q : Fin 512) :
    (V m c main_v10 : S1x512.Idx → EReal) (ix2 z q) = (m ((c : Thread nD τ).loc main_arg9) : S512.Idx → EReal) (ix1 q) := by
  have e : (V m c main_v10 : S1x512.Idx → EReal)
      = shapeCast S1x512 (m ((c : Thread nD τ).loc main_arg9) : S512.Idx → EReal) shapeCasts_S512_S1x512 := by
    dsimp only [V, hostOps0]; after_results; all_goals rfl
  rw [e]
  exact shapeCast_a_1a_apply _ _ z q

/-- b2 as a row. -/
theorem V_v11_at (c : Dev nD) (z : Fin 1) (q : Fin 512) :
    (V m c main_v11 : S1x512.Idx → EReal) (ix2 z q) = (m ((c : Thread nD τ).loc main_arg11) : S512.Idx → EReal) (ix1 q) := by
  have e : (V m c main_v11 : S1x512.Idx → EReal)
      = shapeCast S1x512 (m ((c : Thread nD τ).loc main_arg11) : S512.Idx → EReal) shapeCasts_S512_S1x512 := by
    dsimp only [V, hostOps0]; after_results; all_goals rfl
  rw [e]
  exact shapeCast_a_1a_apply _ _ z q

/-! ## The blocks at a point -/

/-- Rows of the inputs. -/
theorem iblk0_at (c : Dev nD) (t : Fin cfg0.N) (p : Fin 512) (k : Fin 256) :
    (iblk m c 0 t : Vec Ideal S512x256 .f32) (ix2 p k) = rows (m ((c : Thread nD τ).loc main_arg0)) (rowOf t p) k := by
  obtain ⟨⟨e0, e1⟩, -⟩ := idx_facts t
  unfold iblk
  rw [View.read_apply]
  show V m c main_arg0 _ = (m ((c : Thread nD τ).loc main_arg0) : S32768x256.Idx → EReal) (ix2 (rowOf t p) k)
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 256 + 1 * k.val = k.val; rw [e1]; omega

/-- Rows of the hidden states. -/
theorem iblk1_at (c : Dev nD) (t : Fin cfg0.N) (p : Fin 512) (k : Fin 512) :
    (iblk m c 1 t : Vec Ideal S512x512 .f32) (ix2 p k) = rows (m ((c : Thread nD τ).loc main_arg1)) (rowOf t p) k := by
  obtain ⟨-, ⟨e0, e1⟩, -⟩ := idx_facts t
  unfold iblk
  rw [View.read_apply]
  show V m c main_arg1 _ = (m ((c : Thread nD τ).loc main_arg1) : S32768x512.Idx → EReal) (ix2 (rowOf t p) k)
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 512 + 1 * k.val = k.val; rw [e1]; omega

/-- Rows of the cell states. -/
theorem iblk2_at (c : Dev nD) (t : Fin cfg0.N) (p : Fin 512) (k : Fin 512) :
    (iblk m c 2 t : Vec Ideal S512x512 .f32) (ix2 p k) = rows (m ((c : Thread nD τ).loc main_arg2)) (rowOf t p) k := by
  obtain ⟨-, -, ⟨e0, e1⟩, -⟩ := idx_facts t
  unfold iblk
  rw [View.read_apply]
  show V m c main_arg2 _ = (m ((c : Thread nD τ).loc main_arg2) : S32768x512.Idx → EReal) (ix2 (rowOf t p) k)
  rw [V_main_arg2]
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 512 + 1 * k.val = k.val; rw [e1]; omega

/-- Rows of the times. -/
theorem iblk3_at (c : Dev nD) (t : Fin cfg0.N) (p : Fin 512) (k : Fin 2) :
    (iblk m c 3 t : Vec Ideal S512x2 .f32) (ix2 p k)
      = (m ((c : Thread nD τ).loc main_arg3) : S32768x2.Idx → EReal) (ix2 (rowOf t p) k) := by
  obtain ⟨-, -, -, ⟨e0, e1⟩, -⟩ := idx_facts t
  unfold iblk
  rw [View.read_apply]
  show V m c main_arg3 _ = (m ((c : Thread nD τ).loc main_arg3) : S32768x2.Idx → EReal) (ix2 (rowOf t p) k)
  rw [V_main_arg3]
  refine congrArg _ (funext fun a => Fin.ext ?_)
  match a with
  | ⟨0, _⟩ => show win0_3.index t (0 : Fin 2) * 512 + 1 * p.val = 512 * t.val + p.val; rw [e0]; omega
  | ⟨1, _⟩ => show win0_3.index t (1 : Fin 2) * 2 + 1 * k.val = k.val; rw [e1]; omega

/-- The whole transposed W_ih, at every point. -/
theorem iblk4_at (c : Dev nD) (t : Fin cfg0.N) (k : Fin 256) (j : Fin 2048) :
    (iblk m c 4 t : Vec Ideal S256x2048 .bf16) (ix2 k j) = rows (m ((c : Thread nD τ).loc main_arg4)) j k := by
  obtain ⟨-, -, -, -, ⟨e0, e1⟩, -⟩ := idx_facts t
  unfold iblk
  rw [View.read_apply]
  show (V m c main_v1 : S256x2048.Idx → EReal) _ = _
  refine Eq.trans (congrArg _ (funext fun a => Fin.ext ?_)) (V_v1_at m c k j)
  match a with
  | ⟨0, _⟩ => show win0_4.index t (0 : Fin 2) * 256 + 1 * k.val = k.val; rw [e0]; omega
  | ⟨1, _⟩ => show win0_4.index t (1 : Fin 2) * 2048 + 1 * j.val = j.val; rw [e1]; omega

/-- The whole transposed W_hh, at every point. -/
theorem iblk5_at (c : Dev nD) (t : Fin cfg0.N) (k : Fin 512) (j : Fin 2048) :
    (iblk m c 5 t : Vec Ideal S512x2048 .bf16) (ix2 k j) = rows (m ((c : Thread nD τ).loc main_arg5)) j k := by
  obtain ⟨-, -, -, -, -, ⟨e0, e1⟩, -⟩ := idx_facts t
  unfold iblk
  rw [View.read_apply]
  show (V m c main_v3 : S512x2048.Idx → EReal) _ = _
  refine Eq.trans (congrArg _ (funext fun a => Fin.ext ?_)) (V_v3_at m c k j)
  match a with
  | ⟨0, _⟩ => show win0_5.index t (0 : Fin 2) * 512 + 1 * k.val = k.val; rw [e0]; omega
  | ⟨1, _⟩ => show win0_5.index t (1 : Fin 2) * 2048 + 1 * j.val = j.val; rw [e1]; omega

/-- The combined bias row, at every point. -/
theorem iblk6_at (c : Dev nD) (t : Fin cfg0.N) (z : Fin 1) (j : Fin 2048) :
    (iblk m c 6 t : Vec Ideal S1x2048 .f32) (ix2 z j) = vec (m ((c : Thread nD τ).loc main_arg6)) j + vec (m ((c : Thread nD τ).loc main_arg7)) j := by
  obtain ⟨-, -, -, -, -, -, ⟨e0, e1⟩, -⟩ := idx_facts t
  unfold iblk
  rw [View.read_apply]
  show (V m c main_v5 : S1x2048.Idx → EReal) _ = _
  refine Eq.trans (congrArg _ (funext fun a => Fin.ext ?_)) (V_v5_at m c z j)
  match a with
  | ⟨0, _⟩ => show win0_6.index t (0 : Fin 2) * 1 + 1 * z.val = z.val; rw [e0]; omega
  | ⟨1, _⟩ => show win0_6.index t (1 : Fin 2) * 2048 + 1 * j.val = j.val; rw [e1]; omega

/-- The whole transposed W1, at every point. -/
theorem iblk7_at (c : Dev nD) (t : Fin cfg0.N) (k q : Fin 512) :
    (iblk m c 7 t : Vec Ideal S512x512 .bf16) (ix2 k q) = rows (m ((c : Thread nD τ).loc main_arg8)) q k := by
  obtain ⟨-, -, -, -, -, -, -, ⟨e0, e1⟩, -⟩ := idx_facts t
  unfold iblk
  rw [View.read_apply]
  show (V m c main_v7 : S512x512.Idx → EReal) _ = _
  refine Eq.trans (congrArg _ (funext fun a => Fin.ext ?_)) (V_v7_at m c k q)
  match a with
  | ⟨0, _⟩ => show win0_7.index t (0 : Fin 2) * 512 + 1 * k.val = k.val; rw [e0]; omega
  | ⟨1, _⟩ => show win0_7.index t (1 : Fin 2) * 512 + 1 * q.val = q.val; rw [e1]; omega

/-- The row b1, at every point. -/
theorem iblk8_at (c : Dev nD) (t : Fin cfg0.N) (z : Fin 1) (q : Fin 512) :
    (iblk m c 8 t : Vec Ideal S1x512 .f32) (ix2 z q) = vec (m ((c : Thread nD τ).loc main_arg9)) q := by
  obtain ⟨-, -, -, -, -, -, -, -, ⟨e0, e1⟩, -⟩ := idx_facts t
  unfold iblk
  rw [View.read_apply]
  show (V m c main_v10 : S1x512.Idx → EReal) _ = _
  refine Eq.trans (congrArg _ (funext fun a => Fin.ext ?_)) (V_v10_at m c z q)
  match a with
  | ⟨0, _⟩ => show win0_8.index t (0 : Fin 2) * 1 + 1 * z.val = z.val; rw [e0]; omega
  | ⟨1, _⟩ => show win0_8.index t (1 : Fin 2) * 512 + 1 * q.val = q.val; rw [e1]; omega

/-- The whole transposed W2, at every point. -/
theorem iblk9_at (c : Dev nD) (t : Fin cfg0.N) (k q : Fin 512) :
    (iblk m c 9 t : Vec Ideal S512x512 .bf16) (ix2 k q) = rows (m ((c : Thread nD τ).loc main_arg10)) q k := by
  obtain ⟨-, -, -, -, -, -, -, -, -, ⟨e0, e1⟩, -⟩ := idx_facts t
  unfold iblk
  rw [View.read_apply]
  show (V m c main_v9 : S512x512.Idx → EReal) _ = _
  refine Eq.trans (congrArg _ (funext fun a => Fin.ext ?_)) (V_v9_at m c k q)
  match a with
  | ⟨0, _⟩ => show win0_9.index t (0 : Fin 2) * 512 + 1 * k.val = k.val; rw [e0]; omega
  | ⟨1, _⟩ => show win0_9.index t (1 : Fin 2) * 512 + 1 * q.val = q.val; rw [e1]; omega

/-- The row b2, at every point. -/
theorem iblk10_at (c : Dev nD) (t : Fin cfg0.N) (z : Fin 1) (q : Fin 512) :
    (iblk m c 10 t : Vec Ideal S1x512 .f32) (ix2 z q) = vec (m ((c : Thread nD τ).loc main_arg11)) q := by
  obtain ⟨-, -, -, -, -, -, -, -, -, -, ⟨e0, e1⟩, -⟩ := idx_facts t
  unfold iblk
  rw [View.read_apply]
  show (V m c main_v11 : S1x512.Idx → EReal) _ = _
  refine Eq.trans (congrArg _ (funext fun a => Fin.ext ?_)) (V_v11_at m c z q)
  match a with
  | ⟨0, _⟩ => show win0_10.index t (0 : Fin 2) * 1 + 1 * z.val = z.val; rw [e0]; omega
  | ⟨1, _⟩ => show win0_10.index t (1 : Fin 2) * 512 + 1 * q.val = q.val; rw [e1]; omega

end Cert.KernelIdeal.Blocks

end
-- ==== Proof.KernelValue.lean ====
/-
  The kernel's two result arrays after its run. Point t writes back, into rows 512·t … 512·t + 511 of each result, the
  block the body leaves from point t's blocks; those blocks are rows of the batch arrays and the whole prepared weights,
  so the block written is the same rows of the cell's result array (a row's results depend on that row alone). The 64
  blocks cover the 32768 rows, so after the run each result array is the cell's result array.
-/
import proofs.«179214_j9947144257770_2_alg».proof.Proof.Gen.KernelIdeal.Value
import proofs.«179214_j9947144257770_2_alg».proof.Proof.KernelCell
import proofs.«179214_j9947144257770_2_alg».proof.Proof.KernelBlocks
import proofs.«179214_j9947144257770_2_alg».proof.Proof.CellArrays
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Blocks OdeLstm

variable (m : (ℓ : Loc nD τ sig) → Buf (Elt Ideal) ℓ) (ρ : Dev nD → PrngReg)

/-- The first result array: the Runge-Kutta step of every batch row, of the argument arrays at launch. -/
def resH (c : Dev nD) : S32768x512.Idx → EReal :=
  outHArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The second result array: the cell state of every batch row after the two updates. -/
def resC (c : Dev nD) : S32768x512.Idx → EReal :=
  newCArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Where entry (p, q) of point t's block of the first result sits in the array: row 512·t + p. -/
theorem emb11 (t : Fin cfg0.N) (p q : Fin 512) :
    ((cfg0.win 11).blk t).view.emb (ix2 p q) = (ix2 (rowOf t p) q : S32768x512.Idx) := by
  obtain ⟨-, -, -, -, -, -, -, -, -, -, -, ⟨e0, e1⟩, -⟩ := idx_facts t
  funext a
  apply Fin.ext
  match a with
  | ⟨0, _⟩ => show win0_11.index t (0 : Fin 2) * 512 + 1 * p.val = 512 * t.val + p.val; rw [e0]; omega
  | ⟨1, _⟩ => show win0_11.index t (1 : Fin 2) * 512 + 1 * q.val = q.val; rw [e1]; omega

/-- The same for the second result. -/
theorem emb12 (t : Fin cfg0.N) (p q : Fin 512) :
    ((cfg0.win 12).blk t).view.emb (ix2 p q) = (ix2 (rowOf t p) q : S32768x512.Idx) := by
  obtain ⟨-, -, -, -, -, -, -, -, -, -, -, -, ⟨e0, e1⟩⟩ := idx_facts t
  funext a
  apply Fin.ext
  match a with
  | ⟨0, _⟩ => show win0_12.index t (0 : Fin 2) * 512 + 1 * p.val = 512 * t.val + p.val; rw [e0]; omega
  | ⟨1, _⟩ => show win0_12.index t (1 : Fin 2) * 512 + 1 * q.val = q.val; rw [e1]; omega

/-- What point t writes back to the first result is block t of the cell's first result array. -/
theorem flushed11_eq (c : Dev nD) (t : Fin cfg0.N) :
    (dats m 0 c).flushed 11 t = ((cfg0.win 11).blk t).view.read (Elt Ideal) (resH m c) := by
  rw [Value.flushed11]
  funext y
  obtain ⟨p, q, rfl⟩ : ∃ (p q : Fin 512), y = ix2 p q := ⟨y 0, y 1, eq_ix2 y⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = resH m c (((cfg0.win 11).blk t).view.emb (ix2 p q))
  rw [emb11 t p q]
  refine (Cell.out11_at (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (paramsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (fun p => rows (m ((c : Thread nD τ).loc main_arg0)) (rowOf t p)) (fun p => rows (m ((c : Thread nD τ).loc main_arg1)) (rowOf t p)) (fun p => rows (m ((c : Thread nD τ).loc main_arg2)) (rowOf t p))
    (fun p => ((m ((c : Thread nD τ).loc main_arg3)) : S32768x2.Idx → EReal) (ix2 (rowOf t p) (0 : Fin 2)))
    (fun p => ((m ((c : Thread nD τ).loc main_arg3)) : S32768x2.Idx → EReal) (ix2 (rowOf t p) (1 : Fin 2)))
    (iblk0_at m c t) (iblk1_at m c t) (iblk2_at m c t) (fun p => iblk3_at m c t p 0) (fun p => iblk3_at m c t p 1)
    (iblk4_at m c t) (iblk5_at m c t) (iblk6_at m c t) (iblk7_at m c t) (iblk8_at m c t) (iblk9_at m c t)
    (iblk10_at m c t) p q).trans ?_
  exact congrFun (congrFun (outH_rows (rowOf t) (paramsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (rows (m ((c : Thread nD τ).loc main_arg0))) (rows (m ((c : Thread nD τ).loc main_arg1))) (rows (m ((c : Thread nD τ).loc main_arg2)))
    (fun r => ((m ((c : Thread nD τ).loc main_arg3)) : S32768x2.Idx → EReal) (ix2 r (0 : Fin 2)))
    (fun r => ((m ((c : Thread nD τ).loc main_arg3)) : S32768x2.Idx → EReal) (ix2 r (1 : Fin 2)))) p) q

/-- What point t writes back to the second result is block t of the cell's second result array. -/
theorem flushed12_eq (c : Dev nD) (t : Fin cfg0.N) :
    (dats m 0 c).flushed 12 t = ((cfg0.win 12).blk t).view.read (Elt Ideal) (resC m c) := by
  rw [Value.flushed12]
  funext y
  obtain ⟨p, q, rfl⟩ : ∃ (p q : Fin 512), y = ix2 p q := ⟨y 0, y 1, eq_ix2 y⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = resC m c (((cfg0.win 12).blk t).view.emb (ix2 p q))
  rw [emb12 t p q]
  refine (Cell.out12_at (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (paramsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (fun p => rows (m ((c : Thread nD τ).loc main_arg0)) (rowOf t p)) (fun p => rows (m ((c : Thread nD τ).loc main_arg1)) (rowOf t p)) (fun p => rows (m ((c : Thread nD τ).loc main_arg2)) (rowOf t p))
    (iblk0_at m c t) (iblk1_at m c t) (iblk2_at m c t)
    (iblk4_at m c t) (iblk5_at m c t) (iblk6_at m c t) p q).trans ?_
  exact congrFun (congrFun (newC_rows (rowOf t) (paramsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (rows (m ((c : Thread nD τ).loc main_arg0))) (rows (m ((c : Thread nD τ).loc main_arg1))) (rows (m ((c : Thread nD τ).loc main_arg2)))) p) q

/-- An index of a result array is in point t's block iff each coordinate is in the block's range on its axis. -/
theorem mem_blk11 (t : Fin cfg0.N) (i : S32768x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v12_0).slice (win0_11.rect t)).set ↔ _
  rw [View.set_slice_whole, Rect.mem_set_unit]
  exact Iff.rfl

theorem mem_blk12 (t : Fin cfg0.N) (i : S32768x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v12_1).slice (win0_12.rect t)).set ↔ _
  rw [View.set_slice_whole, Rect.mem_set_unit]
  exact Iff.rfl

/-- Every row is in the block of the point its number divided by 512 names. -/
theorem cover11 (i : S32768x512.Idx) :
    ∃ t : Fin cfg0.N, (cfg0.win 11).flush t = true ∧ i ∈ ((cfg0.win 11).blk t).view.set := by
  have hN : cfg0.N = 64 := N_0
  have hi0 : (i 0).val < 32768 := (i 0).isLt
  have hi1 : (i 1).val < 512 := (i 1).isLt
  obtain ⟨t, ht⟩ : ∃ t : Fin cfg0.N, t.val = (i 0).val / 512 := ⟨⟨(i 0).val / 512, by omega⟩, rfl⟩
  obtain ⟨-, -, -, -, -, -, -, -, -, -, -, ⟨e0, e1⟩, -⟩ := idx_facts t
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512
    rw [e0]; omega
  | ⟨1, _⟩ =>
    show win0_11.index t (1 : Fin 2) * 512 ≤ (i 1).val ∧ (i 1).val < win0_11.index t (1 : Fin 2) * 512 + 512
    rw [e1]; omega

theorem cover12 (i : S32768x512.Idx) :
    ∃ t : Fin cfg0.N, (cfg0.win 12).flush t = true ∧ i ∈ ((cfg0.win 12).blk t).view.set := by
  have hN : cfg0.N = 64 := N_0
  have hi0 : (i 0).val < 32768 := (i 0).isLt
  have hi1 : (i 1).val < 512 := (i 1).isLt
  obtain ⟨t, ht⟩ : ∃ t : Fin cfg0.N, t.val = (i 0).val / 512 := ⟨⟨(i 0).val / 512, by omega⟩, rfl⟩
  obtain ⟨-, -, -, -, -, -, -, -, -, -, -, -, ⟨e0, e1⟩⟩ := idx_facts t
  refine ⟨t, flush0_12 t, ?_⟩
  rw [mem_blk12]
  intro a
  match a with
  | ⟨0, _⟩ =>
    show win0_12.index t (0 : Fin 2) * 512 ≤ (i 0).val ∧ (i 0).val < win0_12.index t (0 : Fin 2) * 512 + 512
    rw [e0]; omega
  | ⟨1, _⟩ =>
    show win0_12.index t (1 : Fin 2) * 512 ≤ (i 1).val ∧ (i 1).val < win0_12.index t (1 : Fin 2) * 512 + 512
    rw [e1]; omega

/-- The first result array after the run. -/
theorem final11 (c : Dev nD) : (dats m 0 c).arrAt 11 cfg0.N = resH m c :=
  (dats m 0 c).arrAt_eq_of_cover 11 (resH m c) (fun t _ => flushed11_eq m c t) cover11

/-- The second result array after the run. -/
theorem final12 (c : Dev nD) : (dats m 0 c).arrAt 12 cfg0.N = resC m c :=
  (dats m 0 c).arrAt_eq_of_cover 12 (resC m c) (fun t _ => flushed12_eq m c t) cover12

/-- The kernel's run: every weakly fair execution terminates with the two results at the cell's result arrays and the
    arguments unchanged. -/
theorem run : θ_run defs (onTc (τ := τ) (main (F := Ideal))) ⟨m, fun _ => 0, ρ⟩ fun r => ∀ c : Dev nD,
      r.2.mem ((c : Thread nD τ).loc main_v12_0) = resH m c
      ∧ r.2.mem ((c : Thread nD τ).loc main_v12_1) = resC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final11 m c), (h c).2.1.trans (final12 m c), (h c).2.2⟩)
    (Value.run_blocks m ρ)

end Cert.KernelIdeal.Hand

end
-- ==== Proof.LibGcnLayout.lean ====
/-
  Layout operations of ranks one and two read at an index, for any extents: a column [a, 1] read as a vector [a] and a
  row [1, b] as a vector [b]; a vector [b] made a row [1, b]; a column [a, 1] and a row [1, b] spread over [a, b]; a
  contiguous piece of a vector. Each result element is one operand element, named by its coordinates.
-/
import Idealize.ShloMosaic.Lib.Pipeline.Value
import Idealize.ShloMosaic.Lib.ValueIdx

noncomputable section

namespace GcnLayout

open Idealize.ShloMosaic Idealize.ShloMosaic.ValueIdx

variable {α : Type}

/-- A column [a, 1] read as a vector: entry p is entry (p, 0). -/
theorem col_cast_apply {a : Nat} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A row [1, b] read as a vector: entry q is entry (0, q). -/
theorem row_uncast_apply {b : Nat} (h : (⟨2, ![1, b]⟩ : Shape).ShapeCasts ⟨1, ![b]⟩)
    (v : (⟨2, ![1, b]⟩ : Shape).Idx → α) (q : Fin b) :
    shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show 0 * b + q.val = q.val
  omega

/-- A vector [b] made a row [1, b]: entry (0, q) is entry q. -/
theorem row_bcast_apply {b : Nat} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A column [a, 1] spread over [a, b]: entry (p, q) is entry (p, 0). -/
theorem col_spread_apply {a b : Nat}
    (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A row [1, b] spread over [a, b]: entry (p, q) is entry (0, q). -/
theorem row_spread_apply {a b : Nat}
    (h : (⟨2, ![1, b]⟩ : Shape).BroadcastsInDim ⟨2, ![a, b]⟩ (![0, 1] : Fin 2 → Fin 2))
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by
      show (0 : Nat) = if (1 : Nat) = 1 then 0 else p.val
      rfl
    | ⟨1, _⟩ => by
      show q.val = if b = 1 then 0 else q.val
      split
      · have := q.isLt; omega
      · rfl)

/-- A contiguous piece of a vector: entry q of the piece starting at `off` is entry `off + q`. -/
theorem piece_apply {n m off : Nat} (h : (⟨1, ![n]⟩ : Shape).Slices ![off] ⟨1, ![m]⟩)
    (v : (⟨1, ![n]⟩ : Shape).Idx → α) (q : Fin m) (hq : off + q.val < n) :
    extractStridedSlice ⟨1, ![m]⟩ ![off] v h (ix1 q) = v (ix1 ⟨off + q.val, hq⟩) :=
  extractStridedSlice_apply ![off] v h (ix1 q) (ix1 ⟨off + q.val, hq⟩) (fun a => match a with
    | ⟨0, _⟩ => rfl)

end GcnLayout

end
-- ==== Proof.RefRows.lean ====
/-
  The reference's values, entry by entry. The reference computes on whole arrays, one row per batch row; each named
  intermediate of its run is read here at an entry (r, q) and found to be the cell's formula for row r: the
  pre-activations as the reference adds them, its logistic function 1 / (1 + e^(-x)) spelt by negate, exponential, add
  and divide, the cell and hidden states, the step length, the field values.
-/
import proofs.«179214_j9947144257770_2_alg».proof.Proof.Gen.ReferenceIdeal.Run
import proofs.«179214_j9947144257770_2_alg».proof.Proof.LibRowOps
import proofs.«179214_j9947144257770_2_alg».proof.Proof.LibGcnLayout
import proofs.«179214_j9947144257770_2_alg».proof.Proof.CellArrays
import Idealize.ShloMosaic.Lib.ValueLayout

noncomputable section

open scoped BigOperators

namespace Cert.ReferenceIdeal.Rows

open Idealize.ShloMosaic Idealize.ShloMosaic.ValueIdx Idealize.ShloMosaic.StableHlo
open Cert.ReferenceIdeal Cert.ReferenceIdeal.Gen Cert.ReferenceIdeal.Value OdeLstm

/-! ## The host's pointwise operations and products at an entry -/

theorem htanh_at {s : Shape} {φ : FTy} (a : FVec Ideal s φ) (i : s.Idx) : Host.tanh a i = Ideal.tanh (a i) := rfl
theorem hexp_at {s : Shape} {φ : FTy} (a : FVec Ideal s φ) (i : s.Idx) : Host.exp a i = Ideal.exp (a i) := rfl
theorem hneg_at {s : Shape} {φ : FTy} (a : FVec Ideal s φ) (i : s.Idx) : Host.negf a i = -(a i) := rfl
theorem hdiv_at {s : Shape} {φ : FTy} (a b : FVec Ideal s φ) (i : s.Idx) : Host.divf a b i = Ideal.div (a i) (b i) := rfl
/-- A constant spread over an array reads its value everywhere. -/
theorem splat_at {t : Shape} (h : S_.BroadcastsInDim t ![]) (w : BitVec 32) (i : t.Idx) :
    broadcastInDim t ![] h (constant (F := Ideal) S_ .f32 w) i = Ideal.ofBits .f32 w := rfl

theorem dg_x (A : FVec Ideal S32768x256 .f32) (B : FVec Ideal S256x2048 .f32) (a : Fin 32768) (b : Fin 2048) :
    Host.dotGeneral dot_S32768x256_S256x2048_S32768x2048_1_0_0_1_n_n none A B (ix2 a b)
      = ∑ c : Fin 256, A (ix2 a c) * B (ix2 c b) :=
  RowOps.dotGeneral_apply _ rfl none A B a b
theorem dg_h (A : FVec Ideal S32768x512 .f32) (B : FVec Ideal S512x2048 .f32) (a : Fin 32768) (b : Fin 2048) :
    Host.dotGeneral dot_S32768x512_S512x2048_S32768x2048_1_0_0_1_n_n none A B (ix2 a b)
      = ∑ c : Fin 512, A (ix2 a c) * B (ix2 c b) :=
  RowOps.dotGeneral_apply _ rfl none A B a b
theorem dg_f (A : FVec Ideal S32768x512 .f32) (B : FVec Ideal S512x512 .f32) (a : Fin 32768) (b : Fin 512) :
    Host.dotGeneral dot_S32768x512_S512x512_S32768x512_1_0_0_1_n_n none A B (ix2 a b)
      = ∑ c : Fin 512, A (ix2 a c) * B (ix2 c b) :=
  RowOps.dotGeneral_apply _ rfl none A B a b

/-! ## The host's layout operations as functions of the index -/

/-- A transposed matrix: entry (q, p) is entry (p, q) of the operand. -/
theorem trF {a b : Nat} (w : (⟨2, ![a, b]⟩ : Shape).Idx → EReal)
    (h : (⟨2, ![a, b]⟩ : Shape).Transposes [1, 0] ⟨2, ![b, a]⟩) :
    transpose ⟨2, ![b, a]⟩ [1, 0] w h = fun i => w (ix2 (i 1 : Fin a) (i 0 : Fin b)) := by
  funext i
  obtain ⟨q, p, rfl⟩ : ∃ (q : Fin b) (p : Fin a), i = ix2 q p := ⟨i 0, i 1, eq_ix2 i⟩
  exact transpose_ix2_apply w h q p

/-- A vector laid along every row of a matrix: entry (r, j) is entry j of the vector. -/
theorem biasF {a b : Nat} (v : (⟨1, ![b]⟩ : Shape).Idx → EReal)
    (h : (⟨2, ![1, b]⟩ : Shape).BroadcastsInDim ⟨2, ![a, b]⟩ (![0, 1] : Fin 2 → Fin 2))
    (h' : (⟨1, ![b]⟩ : Shape).BroadcastsInDim ⟨2, ![1, b]⟩ (![1] : Fin 1 → Fin 2)) :
    broadcastInDim ⟨2, ![a, b]⟩ ![0, 1] h (broadcastInDim ⟨2, ![1, b]⟩ ![1] h' v) = fun i => v (ix1 (i 1 : Fin b)) := by
  funext i
  obtain ⟨r, j, rfl⟩ : ∃ (r : Fin a) (j : Fin b), i = ix2 r j := ⟨i 0, i 1, eq_ix2 i⟩
  exact (GcnLayout.row_spread_apply h _ r j).trans (GcnLayout.row_bcast_apply h' v 0 j)

/-- A column laid along every column of a matrix: entry (r, q) is entry (r, 0) of the column. -/
theorem colF {a b : Nat} (v : (⟨2, ![a, 1]⟩ : Shape).Idx → EReal)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0 : Fin a) (0 : Fin 1)) := by
  funext i
  obtain ⟨r, q, rfl⟩ : ∃ (r : Fin a) (q : Fin b), i = ix2 r q := ⟨i 0, i 1, eq_ix2 i⟩
  exact GcnLayout.col_spread_apply h v r q

/-- A vector stood up as a column: entry (r, 0) is entry r of the vector. -/
theorem vecColF {a : Nat} (v : (⟨1, ![a]⟩ : Shape).Idx → EReal)
    (h : (⟨1, ![a]⟩ : Shape).BroadcastsInDim ⟨2, ![a, 1]⟩ (![0] : Fin 1 → Fin 2)) :
    broadcastInDim ⟨2, ![a, 1]⟩ ![0] h v = fun i => v (ix1 (i 0 : Fin a)) := by
  funext i
  obtain ⟨r, z, rfl⟩ : ∃ (r : Fin a) (z : Fin 1), i = ix2 r z := ⟨i 0, i 1, eq_ix2 i⟩
  exact RowOps.vec_col_apply h v r z

/-! ## The cell's inputs, read off the argument arrays -/

variable (V0 : Valuation τ sig (Elt Ideal))

/-- The weights. -/
abbrev rP : Params :=
  paramsOf (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11))
/-- The inputs, the hidden states and the cell states of the batch rows. -/
abbrev rX : Fin 32768 → Fin 256 → EReal := rows (V0 (Proc.devRef .tc main_arg0))
abbrev rH : Fin 32768 → Fin 512 → EReal := rows (V0 (Proc.devRef .tc main_arg1))
abbrev rC : Fin 32768 → Fin 512 → EReal := rows (V0 (Proc.devRef .tc main_arg2))
/-- The two times of the batch rows. -/
abbrev rT0 : Fin 32768 → EReal := fun r => (V0 (Proc.devRef .tc main_arg3) : FVec Ideal S32768x2 .f32) (ix2 r (0 : Fin 2))
abbrev rT1 : Fin 32768 → EReal := fun r => (V0 (Proc.devRef .tc main_arg3) : FVec Ideal S32768x2 .f32) (ix2 r (1 : Fin 2))

/-! ## The named intermediates -/

/-- The pre-activations of the first update. -/
theorem res10_at (r : Fin 32768) (j : Fin 2048) : res_main_v10 V0 (ix2 r j) = pre (rP V0) (rX V0) (rH V0) r j := by
  unfold res_main_v10
  repeat rw [trF]
  repeat rw [biasF]
  simp only [addf_apply, dg_x, dg_h]
  rfl

/-- The cell state after the first update. -/
theorem res36_at (r : Fin 32768) (q : Fin 512) :
    res_main_v36 V0 (ix2 r q) = c1 (rP V0) (rX V0) (rH V0) (rC V0) r q := by
  unfold res_main_v36
  repeat rw [broadcastInDim_constant]
  simp only [addf_apply, mulf_apply, htanh_at, hdiv_at, hexp_at, hneg_at, broadcast_apply, slice2_axis1_eq, res10_at]
  rfl

/-- The pre-activations of the second update. -/
theorem res49_at (r : Fin 32768) (j : Fin 2048) :
    res_main_v49 V0 (ix2 r j) = pre (rP V0) (rX V0) (h1 (rP V0) (rX V0) (rH V0) (rC V0)) r j := by
  unfold res_main_v49
  repeat rw [trF]
  repeat rw [biasF]
  repeat rw [broadcastInDim_constant]
  simp only [addf_apply, mulf_apply, htanh_at, hdiv_at, hexp_at, hneg_at, broadcast_apply, slice2_axis1_eq, dg_x, dg_h,
    res10_at, res36_at]
  rfl

/-- The hidden state after the second update. -/
theorem res77_at (r : Fin 32768) (q : Fin 512) :
    res_main_v77 V0 (ix2 r q) = newH (rP V0) (rX V0) (rH V0) (rC V0) r q := by
  unfold res_main_v77
  repeat rw [broadcastInDim_constant]
  simp only [addf_apply, mulf_apply, htanh_at, hdiv_at, hexp_at, hneg_at, broadcast_apply, slice2_axis1_eq, res49_at,
    res36_at]
  rfl

/-- The step length of a row. -/
theorem res83_at (r : Fin 32768) (z : Fin 1) : res_main_v83 V0 (ix2 r z) = rT1 V0 r - rT0 V0 r := by
  unfold res_main_v83
  rw [vecColF]
  simp only [subf_apply, GcnLayout.col_cast_apply, slice2_axis1_eq]
  rfl

/-- The first field value. -/
theorem res94_at (r : Fin 32768) (q : Fin 512) :
    res_main_v94 V0 (ix2 r q) = field (rP V0) (newH (rP V0) (rX V0) (rH V0) (rC V0)) r q := by
  unfold res_main_v94
  repeat rw [trF]
  repeat rw [biasF]
  simp only [addf_apply, htanh_at, dg_f, res77_at]
  rfl

/-- The second field value. -/
theorem res110_at (r : Fin 32768) (q : Fin 512) :
    res_main_v110 V0 (ix2 r q)
      = field (rP V0) (moved (newH (rP V0) (rX V0) (rH V0) (rC V0))
          (fun r => Ideal.ofBits .f32 0x3F000000#32 * (rT1 V0 r - rT0 V0 r))
          (field (rP V0) (newH (rP V0) (rX V0) (rH V0) (rC V0)))) r q := by
  unfold res_main_v110
  repeat rw [trF]
  repeat rw [biasF]
  repeat rw [colF]
  repeat rw [broadcastInDim_constant]
  simp only [addf_apply, mulf_apply, htanh_at, broadcast_apply, dg_f, res77_at, res83_at, res94_at]
  rfl

/-- The third field value. -/
theorem res126_at (r : Fin 32768) (q : Fin 512) :
    res_main_v126 V0 (ix2 r q)
      = field (rP V0) (moved (newH (rP V0) (rX V0) (rH V0) (rC V0))
          (fun r => Ideal.ofBits .f32 0x3F000000#32 * (rT1 V0 r - rT0 V0 r))
          (field (rP V0) (moved (newH (rP V0) (rX V0) (rH V0) (rC V0))
            (fun r => Ideal.ofBits .f32 0x3F000000#32 * (rT1 V0 r - rT0 V0 r))
            (field (rP V0) (newH (rP V0) (rX V0) (rH V0) (rC V0)))))) r q := by
  unfold res_main_v126
  repeat rw [trF]
  repeat rw [biasF]
  repeat rw [colF]
  repeat rw [broadcastInDim_constant]
  simp only [addf_apply, mulf_apply, htanh_at, broadcast_apply, dg_f, res77_at, res83_at, res110_at]
  rfl

end Cert.ReferenceIdeal.Rows

end
-- ==== Proof.RefValue.lean ====
/-
  The reference's two results after its run: the term its operations compose for each result, read at an entry (r, q)
  through the named intermediates, is the cell's formula for batch row r — so each result array is the cell's result
  array of the argument arrays at launch.
-/
import proofs.«179214_j9947144257770_2_alg».proof.Proof.RefRows

noncomputable section

open scoped BigOperators

namespace Cert.ReferenceIdeal.Hand

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.Value Cert.ReferenceIdeal.Rows OdeLstm

/-- The reference's run: every weakly fair execution terminates with the two results at the cell's result arrays and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152)
        = outHArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v75)
        = newCArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ⟨(h c).1.trans ?_, (h c).2.1.trans ?_, (h c).2.2⟩)
    (Cert.ReferenceIdeal.Value.run (F := Ideal) m ρ)
  · funext i
    obtain ⟨r, q, rfl⟩ : ∃ (r : Fin 32768) (q : Fin 512), i = ix2 r q := ⟨i 0, i 1, eq_ix2 i⟩
    repeat rw [trF]
    repeat rw [biasF]
    repeat rw [colF]
    repeat rw [broadcastInDim_constant]
    simp only [addf_apply, mulf_apply, hdiv_at, htanh_at, broadcast_apply, dg_f, res77_at, res83_at, res94_at,
      res110_at, res126_at]
    rfl
  · funext i
    obtain ⟨r, q, rfl⟩ : ∃ (r : Fin 32768) (q : Fin 512), i = ix2 r q := ⟨i 0, i 1, eq_ix2 i⟩
    repeat rw [broadcastInDim_constant]
    simp only [addf_apply, mulf_apply, htanh_at, hdiv_at, hexp_at, hneg_at, broadcast_apply, slice2_axis1_eq,
      res49_at, res36_at]
    rfl

end Cert.ReferenceIdeal.Hand

end
-- ==== Proof.lean ====
/-
  An ODE-LSTM cell: two LSTM updates with the same input, then one classical Runge-Kutta step of an autonomous
  two-layer vector field F(h) = W2 · tanh(W1 · h + b1) + b2 over the step length dt = t1 - t0, for 32768 independent
  batch rows (Proof/CellSpec.lean has the formulas of one row, Proof/CellArrays.lean the two results as arrays).

  The kernel works on 64 blocks of 512 rows, on weights the host transposed beforehand, adds the two LSTM biases before
  the matrix products' sum rather than one after each product, rounds the products' operands to bf16 (the identity on
  extended reals) and spells each logistic gate 1/2 · (tanh(x / 2) + 1); the reference works on whole arrays and spells
  the gate 1 / (1 + e^(-x)). On the extended reals the two compute one function of the arguments:
  - each result row depends on its own batch row alone, so the 64 blocks written back are the rows of one array
    (Proof/KernelBlocks.lean, Proof/KernelValue.lean);
  - addition of extended reals is commutative and associative, which is all the change of bias order needs;
  - 1/2 · (tanh(x / 2) + 1) = 1 / (1 + e^(-x)) at every extended real: on the reals by the exponential form of tanh, and
    at the two infinities both sides are 0 and 1 (Proof/CellSpec.lean);
  - everything else — the matrix products as sums over the contracted coordinate, the slices into gates, the
    Runge-Kutta combination — is the same expression on both sides, entry by entry (Proof/KernelRows.lean,
    Proof/KernelCell.lean for the kernel body, Proof/RefRows.lean, Proof/RefValue.lean for the reference).
  No step uses that the inputs are finite. The three frames are the generated ones (the reference's is its run with the
  results dropped); the idealized kernel is the kernel's own text read at the extended reals, so nothing is owed for it.
-/
import proofs.«179214_j9947144257770_2_alg».proof.Defs
import proofs.«179214_j9947144257770_2_alg».proof.Proof.Gen.Kernel
import proofs.«179214_j9947144257770_2_alg».proof.Proof.Gen.Kernel.Skeleton
import proofs.«179214_j9947144257770_2_alg».proof.Proof.Gen.Kernel.Launch
import proofs.«179214_j9947144257770_2_alg».proof.Proof.Gen.Kernel.Points
import proofs.«179214_j9947144257770_2_alg».proof.Proof.Gen.Kernel.Frame
import proofs.«179214_j9947144257770_2_alg».proof.Proof.Gen.KernelIdeal
import proofs.«179214_j9947144257770_2_alg».proof.Proof.Gen.KernelIdeal.Skeleton
import proofs.«179214_j9947144257770_2_alg».proof.Proof.Gen.KernelIdeal.Launch
import proofs.«179214_j9947144257770_2_alg».proof.Proof.Gen.KernelIdeal.Points
import proofs.«179214_j9947144257770_2_alg».proof.Proof.Gen.KernelIdeal.Frame
import proofs.«179214_j9947144257770_2_alg».proof.Proof.Gen.ReferenceIdeal
import proofs.«179214_j9947144257770_2_alg».proof.Proof.Gen.Pre_finite_inputs
import proofs.«179214_j9947144257770_2_alg».proof.Proof.Gen.KernelIdeal.Value
import proofs.«179214_j9947144257770_2_alg».proof.Proof.Gen.ReferenceIdeal.Run
import proofs.«179214_j9947144257770_2_alg».proof.Proof.KernelValue
import proofs.«179214_j9947144257770_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the twelve arguments, the kernel's two result arrays end at the cell's result arrays of
    the arguments, and so do the reference's. -/
theorem algebraic : Cert.algebraic_KernelIdeal_ReferenceIdeal := by
  intro m ρ m' ρ' _ hagree
  refine ⟨fun c => Cert.KernelIdeal.Hand.resH m c, fun c => Cert.KernelIdeal.Hand.resC m c,
    Cert.KernelIdeal.Hand.run m ρ, ?_⟩
  refine (θ_run Cert.ReferenceIdeal.defs _ _).mono (fun _ h c => ?_) (Cert.ReferenceIdeal.Hand.run m' ρ')
  obtain ⟨e0, e1, e2, e3, e4, e5, e6, e7, e8, e9, e10, e11⟩ := hagree c
  refine ⟨(h c).1.trans ?_, (h c).2.1.trans ?_, (h c).2.2⟩
  · rw [e0, e1, e2, e3, e4, e5, e6, e7, e8, e9, e10, e11]
    rfl
  · rw [e0, e1, e2, e4, e5, e6, e7, e8, e9, e10, e11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
